-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v75) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S2x320000 : Shape := ⟨2, ![2, 320000]⟩
abbrev S20000 : Shape := ⟨1, ![20000]⟩
abbrev S320000x16 : Shape := ⟨2, ![320000, 16]⟩
abbrev S16x256 : Shape := ⟨2, ![16, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg27 : FVec F S1 .f32) (main_arg28 : FVec F S64x1 .f32) (main_arg29 : FVec F S1 .f32) (main_v118 : IVec S_ 1) (main_v119 : FVec F S64x1 .f32) : IVec S_ 1 :=
  let main_cst_46 : FVec F S_ .f32 := constant S_ .f32 0x7F800000#32
  let main_v120 : FVec F S64x1 .f32 := broadcastInDim S64x1 ![] bcast_S_S64x1 main_cst_46
  let main_v121 : IVec S64x1 1 := cmpf .olt main_v119 main_v120
  let main_c_47 : IVec S_ 1 := constantI S_ 1 1#1
  let main_v122 : IVec S_ 1 := (fun x v => Host.reduce IntOp.andi x v reducesTo_S64x1_S_d0_1 h_S_) main_v121 main_c_47
  let main_v123 : IVec S_ 1 := andi main_v118 main_v122
  let main_v124 : FVec F S1 .f32 := Host.absf main_arg27
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_v129 : FVec F S64x1 .f32 := Host.absf main_arg28
  let main_cst_50 : FVec F S_ .f32 := constant S_ .f32 0x7F800000#32
  let main_v130 : FVec F S64x1 .f32 := broadcastInDim S64x1 ![] bcast_S_S64x1 main_cst_50
  let main_v131 : IVec S64x1 1 := cmpf .olt main_v129 main_v130
  let main_c_51 : IVec S_ 1 := constantI S_ 1 1#1
  let main_v132 : IVec S_ 1 := (fun x v => Host.reduce IntOp.andi x v reducesTo_S64x1_S_d0_1 h_S_) main_v131 main_c_51
  let main_v133 : IVec S_ 1 := andi main_v128 main_v132
  let main_v134 : FVec F S1 .f32 := Host.absf main_arg29
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg23 : FVec F S64 .f32) (main_arg24 : FVec F S64x1 .f32) (main_arg25 : FVec F S1 .f32) (main_arg26 : FVec F S64x1 .f32) (main_arg27 : FVec F S1 .f32) (main_arg28 : FVec F S64x1 .f32) (main_arg29 : FVec F S1 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x1 .f32 := Host.absf main_arg24
  let main_cst_42 : FVec F S_ .f32 := constant S_ .f32 0x7F800000#32
  let main_v110 : FVec F S64x1 .f32 := broadcastInDim S64x1 ![] bcast_S_S64x1 main_cst_42
  let main_v111 : IVec S64x1 1 := cmpf .olt main_v109 main_v110
  let main_c_43 : IVec S_ 1 := constantI S_ 1 1#1
  let main_v112 : IVec S_ 1 := (fun x v => Host.reduce IntOp.andi x v reducesTo_S64x1_S_d0_1 h_S_) main_v111 main_c_43
  let main_v113 : IVec S_ 1 := andi main_v108 main_v112
  let main_v114 : FVec F S1 .f32 := Host.absf main_arg25
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_v119 : FVec F S64x1 .f32 := Host.absf main_arg26
  fn_part7 (F := F) main_arg27 main_arg28 main_arg29 main_v118 main_v119

def fn_part5 {F : FTy → Type} [FloatOps F] (main_arg20 : FVec F S256x128 .f32) (main_arg21 : FVec F S128 .f32) (main_arg22 : FVec F S128x64 .f32) (main_arg23 : FVec F S64 .f32) (main_arg24 : FVec F S64x1 .f32) (main_arg25 : FVec F S1 .f32) (main_arg26 : FVec F S64x1 .f32) (main_arg27 : FVec F S1 .f32) (main_arg28 : FVec F S64x1 .f32) (main_arg29 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x128 .f32 := Host.absf main_arg20
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg22
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg23 main_arg24 main_arg25 main_arg26 main_arg27 main_arg28 main_arg29 main_v98 main_v101 main_c_39

def fn_part4 {F : FTy → Type} [FloatOps F] (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S128x64 .f32) (main_arg23 : FVec F S64 .f32) (main_arg24 : FVec F S64x1 .f32) (main_arg25 : FVec F S1 .f32) (main_arg26 : FVec F S64x1 .f32) (main_arg27 : FVec F S1 .f32) (main_arg28 : FVec F S64x1 .f32) (main_arg29 : FVec F S1 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg18
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_v83 main_v84 main_cst_32

def fn_part3 {F : FTy → Type} [FloatOps F] (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S128x64 .f32) (main_arg23 : FVec F S64 .f32) (main_arg24 : FVec F S64x1 .f32) (main_arg25 : FVec F S1 .f32) (main_arg26 : FVec F S64x1 .f32) (main_arg27 : FVec F S1 .f32) (main_arg28 : FVec F S64x1 .f32) (main_arg29 : FVec F S1 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_arg26 main_arg27 main_arg28 main_arg29 main_v63 main_v67

def fn_part2 {F : FTy → Type} [FloatOps F] (main_arg9 : FVec F S64 .f32) (main_arg10 : FVec F S256x256 .f32) (main_arg11 : FVec F S256 .f32) (main_arg12 : FVec F S64x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S128x64 .f32) (main_arg23 : FVec F S64 .f32) (main_arg24 : FVec F S64x1 .f32) (main_arg25 : FVec F S1 .f32) (main_arg26 : FVec F S64x1 .f32) (main_arg27 : FVec F S1 .f32) (main_arg28 : FVec F S64x1 .f32) (main_arg29 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S64x256 .f32 := Host.absf main_arg12
  let main_cst_18 : FVec F S_ .f32 := constant S_ .f32 0x7F800000#32
  let main_v50 : FVec F S64x256 .f32 := broadcastInDim S64x256 ![] bcast_S_S64x256 main_cst_18
  fn_part3 (F := F) main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg6 : FVec F S256x256 .f32) (main_arg7 : FVec F S256 .f32) (main_arg8 : FVec F S256x64 .f32) (main_arg9 : FVec F S64 .f32) (main_arg10 : FVec F S256x256 .f32) (main_arg11 : FVec F S256 .f32) (main_arg12 : FVec F S64x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S128x64 .f32) (main_arg23 : FVec F S64 .f32) (main_arg24 : FVec F S64x1 .f32) (main_arg25 : FVec F S1 .f32) (main_arg26 : FVec F S64x1 .f32) (main_arg27 : FVec F S1 .f32) (main_arg28 : FVec F S64x1 .f32) (main_arg29 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S20000x64 .f32) (main_arg1 : IVec S2x320000 32) (main_arg2 : IVec S20000 32) (main_arg3 : FVec F S320000x16 .f32) (main_arg4 : FVec F S16x256 .f32) (main_arg5 : FVec F S256 .f32) (main_arg6 : FVec F S256x256 .f32) (main_arg7 : FVec F S256 .f32) (main_arg8 : FVec F S256x64 .f32) (main_arg9 : FVec F S64 .f32) (main_arg10 : FVec F S256x256 .f32) (main_arg11 : FVec F S256 .f32) (main_arg12 : FVec F S64x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x128 .f32) (main_arg21 : FVec F S128 .f32) (main_arg22 : FVec F S128x64 .f32) (main_arg23 : FVec F S64 .f32) (main_arg24 : FVec F S64x1 .f32) (main_arg25 : FVec F S1 .f32) (main_arg26 : FVec F S64x1 .f32) (main_arg27 : FVec F S1 .f32) (main_arg28 : FVec F S64x1 .f32) (main_arg29 : FVec F S1 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S320000x16 .f32 := Host.absf main_arg3
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S16x256 .f32 := Host.absf main_arg4
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S20000x64 : Shape := ⟨2, ![20000, 64]⟩
abbrev S2x320000 : Shape := ⟨2, ![2, 320000]⟩
abbrev S20000 : Shape := ⟨1, ![20000]⟩
abbrev S320000x16 : Shape := ⟨2, ![320000, 16]⟩
abbrev S16x256 : Shape := ⟨2, ![16, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x320000 : Shape := ⟨2, ![1, 320000]⟩
abbrev S320000 : Shape := ⟨1, ![320000]⟩
abbrev S1x256 : Shape := ⟨2, ![1, 256]⟩
abbrev S1x64 : Shape := ⟨2, ![1, 64]⟩
abbrev S320000x64 : Shape := ⟨2, ![320000, 64]⟩
abbrev S320000x256 : Shape := ⟨2, ![320000, 256]⟩
abbrev S2000x16 : Shape := ⟨2, ![2000, 16]⟩
abbrev S2000x64 : Shape := ⟨2, ![2000, 64]⟩
abbrev S2000x256 : Shape := ⟨2, ![2000, 256]⟩
abbrev S_ : Shape := ⟨0, ![]⟩
abbrev S320000x1 : Shape := ⟨2, ![320000, 1]⟩
abbrev S20000x256 : Shape := ⟨2, ![20000, 256]⟩
abbrev S20000x1 : Shape := ⟨2, ![20000, 1]⟩
abbrev S64x128 : Shape := ⟨2, ![64, 128]⟩
abbrev S1x128 : Shape := ⟨2, ![1, 128]⟩
abbrev S64x64 : Shape := ⟨2, ![64, 64]⟩
abbrev S1x1 : Shape := ⟨2, ![1, 1]⟩

abbrev nBuf : Space → Nat
  | .hbm => 125
  | .vmem => 34
  | .smem => 0
  | _ => 0

abbrev bufTy : (tb : Table) → Fin (tcTables nBuf tb) → BufTy
  | .hbm, ⟨0, _⟩ => ⟨S20000x64, .f32⟩
  | .hbm, ⟨1, _⟩ => ⟨S2x320000, .i32⟩
  | .hbm, ⟨2, _⟩ => ⟨S20000, .i32⟩
  | .hbm, ⟨3, _⟩ => ⟨S320000x16, .f32⟩
  | .hbm, ⟨4, _⟩ => ⟨S16x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S256x256, .f32⟩
  | .hbm, ⟨11, _⟩ => ⟨S256, .f32⟩
  | .hbm, ⟨12, _⟩ => ⟨S64x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x128, .f32⟩
  | .hbm, ⟨21, _⟩ => ⟨S128, .f32⟩
  | .hbm, ⟨22, _⟩ => ⟨S128x64, .f32⟩
  | .hbm, ⟨23, _⟩ => ⟨S64, .f32⟩
  | .hbm, ⟨24, _⟩ => ⟨S64x1, .f32⟩
  | .hbm, ⟨25, _⟩ => ⟨S1, .f32⟩
  | .hbm, ⟨26, _⟩ => ⟨S64x1, .f32⟩
  | .hbm, ⟨27, _⟩ => ⟨S1, .f32⟩
  | .hbm, ⟨28, _⟩ => ⟨S64x1, .f32⟩
  | .hbm, ⟨29, _⟩ => ⟨S1, .f32⟩
  | .hbm, ⟨30, _⟩ => ⟨S1x320000, .i32⟩
  | .hbm, ⟨31, _⟩ => ⟨S320000, .i32⟩
  | .hbm, ⟨32, _⟩ => ⟨S1x320000, .i32⟩
  | .hbm, ⟨33, _⟩ => ⟨S320000, .i32⟩
  | .hbm, ⟨34, _⟩ => ⟨S1x256, .f32⟩
  | .hbm, ⟨35, _⟩ => ⟨S1x256, .f32⟩
  | .hbm, ⟨36, _⟩ => ⟨S1x64, .f32⟩
  | .hbm, ⟨37, _⟩ => ⟨S1x256, .f32⟩
  | .hbm, ⟨38, _⟩ => ⟨S320000x64, .f32⟩
  | .hbm, ⟨39, _⟩ => ⟨S320000x256, .f32⟩
  | .hbm, ⟨40, _⟩ => ⟨S_, .i32⟩
  | .hbm, ⟨41, _⟩ => ⟨S320000, .i32⟩
  | .hbm, ⟨42, _⟩ => ⟨S320000, .i1⟩
  | .hbm, ⟨43, _⟩ => ⟨S_, .i32⟩
  | .hbm, ⟨44, _⟩ => ⟨S320000, .i32⟩
  | .hbm, ⟨45, _⟩ => ⟨S320000, .i32⟩
  | .hbm, ⟨46, _⟩ => ⟨S320000, .i32⟩
  | .hbm, ⟨47, _⟩ => ⟨S320000x1, .i32⟩
  | .hbm, ⟨48, _⟩ => ⟨S320000x64, .f32⟩
  | .hbm, ⟨49, _⟩ => ⟨S320000x64, .f32⟩
  | .hbm, ⟨50, _⟩ => ⟨S_, .f32⟩
  | .hbm, ⟨51, _⟩ => ⟨S320000x64, .f32⟩
  | .hbm, ⟨52, _⟩ => ⟨S320000x64, .f32⟩
  | .hbm, ⟨53, _⟩ => ⟨S_, .f32⟩
  | .hbm, ⟨54, _⟩ => ⟨S20000x64, .f32⟩
  | .hbm, ⟨55, _⟩ => ⟨S320000x1, .i32⟩
  | .hbm, ⟨56, _⟩ => ⟨S20000x64, .f32⟩
  | .hbm, ⟨57, _⟩ => ⟨S1x256, .f32⟩
  | .hbm, ⟨58, _⟩ => ⟨S1x256, .f32⟩
  | .hbm, ⟨59, _⟩ => ⟨S20000x256, .f32⟩
  | .hbm, ⟨60, _⟩ => ⟨S_, .i32⟩
  | .hbm, ⟨61, _⟩ => ⟨S320000, .i32⟩
  | .hbm, ⟨62, _⟩ => ⟨S320000, .i1⟩
  | .hbm, ⟨63, _⟩ => ⟨S_, .i32⟩
  | .hbm, ⟨64, _⟩ => ⟨S320000, .i32⟩
  | .hbm, ⟨65, _⟩ => ⟨S320000, .i32⟩
  | .hbm, ⟨66, _⟩ => ⟨S320000, .i32⟩
  | .hbm, ⟨67, _⟩ => ⟨S320000x1, .i32⟩
  | .hbm, ⟨68, _⟩ => ⟨S320000x256, .f32⟩
  | .hbm, ⟨69, _⟩ => ⟨S320000x256, .f32⟩
  | .hbm, ⟨70, _⟩ => ⟨S_, .f32⟩
  | .hbm, ⟨71, _⟩ => ⟨S320000x256, .f32⟩
  | .hbm, ⟨72, _⟩ => ⟨S320000x256, .f32⟩
  | .hbm, ⟨73, _⟩ => ⟨S_, .f32⟩
  | .hbm, ⟨74, _⟩ => ⟨S20000x256, .f32⟩
  | .hbm, ⟨75, _⟩ => ⟨S320000x1, .i32⟩
  | .hbm, ⟨76, _⟩ => ⟨S20000x256, .f32⟩
  | .hbm, ⟨77, _⟩ => ⟨S1x256, .f32⟩
  | .hbm, ⟨78, _⟩ => ⟨S1x256, .f32⟩
  | .hbm, ⟨79, _⟩ => ⟨S20000x256, .f32⟩
  | .hbm, ⟨80, _⟩ => ⟨S_, .f32⟩
  | .hbm, ⟨81, _⟩ => ⟨S64x256, .f32⟩
  | .hbm, ⟨82, _⟩ => ⟨S20000x1, .i32⟩
  | .hbm, ⟨83, _⟩ => ⟨S64x256, .f32⟩
  | .hbm, ⟨84, _⟩ => ⟨S_, .f32⟩
  | .hbm, ⟨85, _⟩ => ⟨S20000, .f32⟩
  | .hbm, ⟨86, _⟩ => ⟨S_, .f32⟩
  | .hbm, ⟨87, _⟩ => ⟨S64, .f32⟩
  | .hbm, ⟨88, _⟩ => ⟨S20000x1, .i32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x256, .f32⟩
  | .hbm, ⟨95, _⟩ => ⟨S64x256, .f32⟩
  | .hbm, ⟨96, _⟩ => ⟨S64x128, .f32⟩
  | .hbm, ⟨97, _⟩ => ⟨S1x128, .f32⟩
  | .hbm, ⟨98, _⟩ => ⟨S64x128, .f32⟩
  | .hbm, ⟨99, _⟩ => ⟨S64x128, .f32⟩
  | .hbm, ⟨100, _⟩ => ⟨S_, .f32⟩
  | .hbm, ⟨101, _⟩ => ⟨S64x128, .f32⟩
  | .hbm, ⟨102, _⟩ => ⟨S64x128, .f32⟩
  | .hbm, ⟨103, _⟩ => ⟨S64x64, .f32⟩
  | .hbm, ⟨104, _⟩ => ⟨S1x64, .f32⟩
  | .hbm, ⟨105, _⟩ => ⟨S64x64, .f32⟩
  | .hbm, ⟨106, _⟩ => ⟨S64x64, .f32⟩
  | .hbm, ⟨107, _⟩ => ⟨S_, .f32⟩
  | .hbm, ⟨108, _⟩ => ⟨S64x64, .f32⟩
  | .hbm, ⟨109, _⟩ => ⟨S64x64, .f32⟩
  | .hbm, ⟨110, _⟩ => ⟨S64x1, .f32⟩
  | .hbm, ⟨111, _⟩ => ⟨S1x1, .f32⟩
  | .hbm, ⟨112, _⟩ => ⟨S64x1, .f32⟩
  | .hbm, ⟨113, _⟩ => ⟨S64x1, .f32⟩
  | .hbm, ⟨114, _⟩ => ⟨S64, .f32⟩
  | .hbm, ⟨115, _⟩ => ⟨S64x1, .f32⟩
  | .hbm, ⟨116, _⟩ => ⟨S1x1, .f32⟩
  | .hbm, ⟨117, _⟩ => ⟨S64x1, .f32⟩
  | .hbm, ⟨118, _⟩ => ⟨S64x1, .f32⟩
  | .hbm, ⟨119, _⟩ => ⟨S64, .f32⟩
  | .hbm, ⟨120, _⟩ => ⟨S64x1, .f32⟩
  | .hbm, ⟨121, _⟩ => ⟨S1x1, .f32⟩
  | .hbm, ⟨122, _⟩ => ⟨S64x1, .f32⟩
  | .hbm, ⟨123, _⟩ => ⟨S64x1, .f32⟩
  | .hbm, ⟨124, _⟩ => ⟨S64, .f32⟩
  | .local _ .vmem, ⟨0, _⟩ => ⟨S2000x16, .f32⟩
  | .local _ .vmem, ⟨1, _⟩ => ⟨S2000x16, .f32⟩
  | .local _ .vmem, ⟨2, _⟩ => ⟨S16x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x64, .f32⟩
  | .local _ .vmem, ⟨7, _⟩ => ⟨S1x64, .f32⟩
  | .local _ .vmem, ⟨8, _⟩ => ⟨S256x256, .f32⟩
  | .local _ .vmem, ⟨9, _⟩ => ⟨S1x256, .f32⟩
  | .local _ .vmem, ⟨10, _⟩ => ⟨S2000x64, .f32⟩
  | .local _ .vmem, ⟨11, _⟩ => ⟨S2000x64, .f32⟩
  | .local _ .vmem, ⟨12, _⟩ => ⟨S2000x256, .f32⟩
  | .local _ .vmem, ⟨13, _⟩ => ⟨S2000x256, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S1x256, .f32⟩
  | .local _ .vmem, ⟨30, _⟩ => ⟨S256x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8_0 : Ref sig .tc := ⟨.hbm, 38, rfl⟩
abbrev main_v8_1 : Ref sig .tc := ⟨.hbm, 39, rfl⟩
abbrev main_c : Ref sig .tc := ⟨.hbm, 40, rfl⟩
abbrev main_v9 : Ref sig .tc := ⟨.hbm, 41, rfl⟩
abbrev main_v10 : Ref sig .tc := ⟨.hbm, 42, rfl⟩
abbrev main_c_0 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_call0_cst : Ref sig .tc := ⟨.hbm, 50, rfl⟩
abbrev main_call0_v0 : Ref sig .tc := ⟨.hbm, 51, rfl⟩
abbrev main_v17 : Ref sig .tc := ⟨.hbm, 52, rfl⟩
abbrev main_cst : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_1 : Ref sig .tc := ⟨.hbm, 60, rfl⟩
abbrev main_v24 : Ref sig .tc := ⟨.hbm, 61, rfl⟩
abbrev main_v25 : Ref sig .tc := ⟨.hbm, 62, rfl⟩
abbrev main_c_2 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call1_cst : Ref sig .tc := ⟨.hbm, 70, rfl⟩
abbrev main_call1_v0 : Ref sig .tc := ⟨.hbm, 71, rfl⟩
abbrev main_v32 : Ref sig .tc := ⟨.hbm, 72, rfl⟩
abbrev main_cst_3 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_4 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_5 : Ref sig .tc := ⟨.hbm, 84, rfl⟩
abbrev main_v42 : Ref sig .tc := ⟨.hbm, 85, rfl⟩
abbrev main_cst_6 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_7 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_call2_cst : Ref sig .tc := ⟨.hbm, 100, rfl⟩
abbrev main_call2_v0 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_call3_cst : Ref sig .tc := ⟨.hbm, 107, rfl⟩
abbrev main_call3_v0 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S256_S1x256 : S256.ShapeCasts S1x256
  shapeCasts_S64_S1x64 : S64.ShapeCasts S1x64
  inb_S2000x16_S2000x16_0_0 : ∀ a, (![0, 0] : Fin 2 → Nat) a + S2000x16.size a ≤ S2000x16.size a
  h_S2000x16 : 0 < S2000x16.numel
  inb_S16x256_S16x256_0_0 : ∀ a, (![0, 0] : Fin 2 → Nat) a + S16x256.size a ≤ S16x256.size a
  h_S16x256 : 0 < S16x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S2000x256_S2000x256_0_0 : ∀ a, (![0, 0] : Fin 2 → Nat) a + S2000x256.size a ≤ S2000x256.size a
  h_S2000x256 : 0 < S2000x256.numel
  bcast_S_S320000 : S_.BroadcastsInDim S320000 (![] : Fin 0 → Fin S320000.rank)
  bcast_S320000_S320000x1_0 : S320000.BroadcastsInDim S320000x1 (![0] : Fin 1 → Fin S320000x1.rank)
  bcast_S_S320000x64 : S_.BroadcastsInDim S320000x64 (![] : Fin 0 → Fin S320000x64.rank)
  bcast_S_S20000x64 : S_.BroadcastsInDim S20000x64 (![] : Fin 0 → Fin S20000x64.rank)
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  bcast_S_S320000x256 : S_.BroadcastsInDim S320000x256 (![] : Fin 0 → Fin S320000x256.rank)
  bcast_S_S20000x256 : S_.BroadcastsInDim S20000x256 (![] : Fin 0 → Fin S20000x256.rank)
  shapeCasts_S2000x256_S2000x256 : S2000x256.ShapeCasts S2000x256
  bcast_S_S64x256 : S_.BroadcastsInDim S64x256 (![] : Fin 0 → Fin S64x256.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S2000x16_S16x256_S2000x256_1_0_0_1_n_n_wf : DotDims.WF S2000x16 S16x256 S2000x256 [1] [0] [0] [1] [] []
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  gather_S20000x64_S320000x1_S320000x64_1_0_n_n_0_1_164_wf : GatherDims.WF S20000x64 S320000x1 S320000x64 [1] [0] [] [0] [] 1 ![1, 64]
  scatter_S20000x64_S320000x1_S320000x64_1_0_0_1_wf : ScatterDims.WF S20000x64 S320000x1 S320000x64 [1] [0] [0] 1
  dot_S2000x64_S64x256_S2000x256_1_0_0_1_n_n_wf : DotDims.WF S2000x64 S64x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S64x256_S20000x1_S20000x256_1_0_0_1_wf : ScatterDims.WF S64x256 S20000x1 S20000x256 [1] [0] [0] 1
  scatter_S64_S20000x1_S20000_n_0_0_1_wf : ScatterDims.WF S64 S20000x1 S20000 [] [0] [0] 1
  dot_S64x256_S256x128_S64x128_1_0_0_1_n_n_wf : DotDims.WF S64x256 S256x128 S64x128 [1] [0] [0] [1] [] []
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S320000x16.size a
  hwx0_0 : ∀ i : grid0.Coords, EltTy.bits .f32 = 32 ∨ (Rect.block (s := S320000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S320000x64.size a
  hwx0_9 : ∀ i : grid0.Coords, EltTy.bits .f32 = 32 ∨ (Rect.block (s := S320000x64) S2000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S320000x256.size a
  hwx0_10 : ∀ i : grid0.Coords, EltTy.bits .f32 = 32 ∨ (Rect.block (s := S320000x256) S2000x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S20000x64.size a
  hwx1_0 : ∀ i : grid1.Coords, EltTy.bits .f32 = 32 ∨ (Rect.block (s := S20000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S20000x64.size a
  hwx1_1 : ∀ i : grid1.Coords, EltTy.bits .f32 = 32 ∨ (Rect.block (s := S20000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S20000x256.size a
  hwx1_6 : ∀ i : grid1.Coords, EltTy.bits .f32 = 32 ∨ (Rect.block (s := S20000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S20000x256.size a
  hwx2_6 : ∀ i : grid2.Coords, EltTy.bits .f32 = 32 ∨ (Rect.block (s := S20000x256) S2000x256.size (cc2_transform_6 i) (hinb2_6 i)).WholeWords (EltTy.packing .f32)

variable [Facts₀]

def dot_S2000x16_S16x256_S2000x256_1_0_0_1_n_n : DotDims S2000x16 S16x256 S2000x256 where
  lhsContracting := [1]
  rhsContracting := [0]
  lhsNonContracting := [0]
  rhsNonContracting := [1]
  lhsBatch := []
  rhsBatch := []
  wf := dot_S2000x16_S16x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg3) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v23) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S20000x64 : Shape := ⟨2, ![20000, 64]⟩
abbrev S2x320000 : Shape := ⟨2, ![2, 320000]⟩
abbrev S20000 : Shape := ⟨1, ![20000]⟩
abbrev S320000x16 : Shape := ⟨2, ![320000, 16]⟩
abbrev S16x256 : Shape := ⟨2, ![16, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x320000 : Shape := ⟨2, ![1, 320000]⟩
abbrev S320000 : Shape := ⟨1, ![320000]⟩
abbrev S320000x256 : Shape := ⟨2, ![320000, 256]⟩
abbrev S1x256 : Shape := ⟨2, ![1, 256]⟩
abbrev S_ : Shape := ⟨0, ![]⟩
abbrev S320000x64 : Shape := ⟨2, ![320000, 64]⟩
abbrev S1x64 : Shape := ⟨2, ![1, 64]⟩
abbrev S320000x1 : Shape := ⟨2, ![320000, 1]⟩
abbrev S20000x256 : Shape := ⟨2, ![20000, 256]⟩
abbrev S20000x1 : Shape := ⟨2, ![20000, 1]⟩
abbrev S64x128 : Shape := ⟨2, ![64, 128]⟩
abbrev S1x128 : Shape := ⟨2, ![1, 128]⟩
abbrev S64x64 : Shape := ⟨2, ![64, 64]⟩
abbrev S1x1 : Shape := ⟨2, ![1, 1]⟩

abbrev nBuf : Space → Nat
  | .hbm => 162
  | .vmem => 0
  | .smem => 0
  | _ => 0

abbrev hbmTy0_0 (i : Nat) : BufTy := match i % 128 with
  | 0 => ⟨S20000x64, .f32⟩
  | 1 => ⟨S2x320000, .i32⟩
  | 2 => ⟨S20000, .i32⟩
  | 3 => ⟨S320000x16, .f32⟩
  | 4 => ⟨S16x256, .f32⟩
  | 5 => ⟨S256, .f32⟩
  | 6 => ⟨S256x256, .f32⟩
  | 7 => ⟨S256, .f32⟩
  | 8 => ⟨S256x64, .f32⟩
  | 9 => ⟨S64, .f32⟩
  | 10 => ⟨S256x256, .f32⟩
  | 11 => ⟨S256, .f32⟩
  | 12 => ⟨S64x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x128, .f32⟩
  | 21 => ⟨S128, .f32⟩
  | 22 => ⟨S128x64, .f32⟩
  | 23 => ⟨S64, .f32⟩
  | 24 => ⟨S64x1, .f32⟩
  | 25 => ⟨S1, .f32⟩
  | 26 => ⟨S64x1, .f32⟩
  | 27 => ⟨S1, .f32⟩
  | 28 => ⟨S64x1, .f32⟩
  | 29 => ⟨S1, .f32⟩
  | 30 => ⟨S1x320000, .i32⟩
  | 31 => ⟨S320000, .i32⟩
  | 32 => ⟨S1x320000, .i32⟩
  | 33 => ⟨S320000, .i32⟩
  | 34 => ⟨S320000x256, .f32⟩
  | 35 => ⟨S1x256, .f32⟩
  | 36 => ⟨S320000x256, .f32⟩
  | 37 => ⟨S320000x256, .f32⟩
  | 38 => ⟨S_, .f32⟩
  | 39 => ⟨S320000x256, .f32⟩
  | 40 => ⟨S320000x256, .f32⟩
  | 41 => ⟨S320000x256, .f32⟩
  | 42 => ⟨S1x256, .f32⟩
  | 43 => ⟨S320000x256, .f32⟩
  | 44 => ⟨S320000x256, .f32⟩
  | 45 => ⟨S320000x64, .f32⟩
  | 46 => ⟨S1x64, .f32⟩
  | 47 => ⟨S320000x64, .f32⟩
  | 48 => ⟨S320000x64, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x64, .f32⟩
  | 58 => ⟨S320000x64, .f32⟩
  | 59 => ⟨S_, .f32⟩
  | 60 => ⟨S320000x64, .f32⟩
  | 61 => ⟨S320000x64, .f32⟩
  | 62 => ⟨S_, .f32⟩
  | 63 => ⟨S20000x64, .f32⟩
  | 64 => ⟨S320000x1, .i32⟩
  | 65 => ⟨S20000x64, .f32⟩
  | 66 => ⟨S20000x64, .f32⟩
  | 67 => ⟨S20000x256, .f32⟩
  | 68 => ⟨S1x256, .f32⟩
  | 69 => ⟨S20000x256, .f32⟩
  | 70 => ⟨S20000x256, .f32⟩
  | 71 => ⟨S_, .f32⟩
  | 72 => ⟨S20000x256, .f32⟩
  | 73 => ⟨S20000x256, .f32⟩
  | 74 => ⟨S20000x256, .f32⟩
  | 75 => ⟨S1x256, .f32⟩
  | 76 => ⟨S20000x256, .f32⟩
  | 77 => ⟨S20000x256, .f32⟩
  | 78 => ⟨S_, .f32⟩
  | 79 => ⟨S20000x256, .f32⟩
  | 80 => ⟨S20000x256, .f32⟩
  | 81 => ⟨S320000x256, .f32⟩
  | 82 => ⟨S1x256, .f32⟩
  | 83 => ⟨S320000x256, .f32⟩
  | 84 => ⟨S320000x256, .f32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S320000x256, .f32⟩
  | 94 => ⟨S320000x256, .f32⟩
  | 95 => ⟨S_, .f32⟩
  | 96 => ⟨S320000x256, .f32⟩
  | 97 => ⟨S320000x256, .f32⟩
  | 98 => ⟨S_, .f32⟩
  | 99 => ⟨S20000x256, .f32⟩
  | 100 => ⟨S320000x1, .i32⟩
  | 101 => ⟨S20000x256, .f32⟩
  | 102 => ⟨S20000x256, .f32⟩
  | 103 => ⟨S20000x256, .f32⟩
  | 104 => ⟨S1x256, .f32⟩
  | 105 => ⟨S20000x256, .f32⟩
  | 106 => ⟨S20000x256, .f32⟩
  | 107 => ⟨S_, .f32⟩
  | 108 => ⟨S20000x256, .f32⟩
  | 109 => ⟨S20000x256, .f32⟩
  | 110 => ⟨S20000x256, .f32⟩
  | 111 => ⟨S1x256, .f32⟩
  | 112 => ⟨S20000x256, .f32⟩
  | 113 => ⟨S20000x256, .f32⟩
  | 114 => ⟨S_, .f32⟩
  | 115 => ⟨S20000x256, .f32⟩
  | 116 => ⟨S20000x256, .f32⟩
  | 117 => ⟨S_, .f32⟩
  | 118 => ⟨S64x256, .f32⟩
  | 119 => ⟨S20000x1, .i32⟩
  | 120 => ⟨S64x256, .f32⟩
  | 121 => ⟨S_, .f32⟩
  | 122 => ⟨S20000, .f32⟩
  | 123 => ⟨S_, .f32⟩
  | 124 => ⟨S64, .f32⟩
  | 125 => ⟨S20000x1, .i32⟩
  | 126 => ⟨S64, .f32⟩
  | 127 => ⟨S_, .f32⟩
  | _ => ⟨S20000x64, .f32⟩

abbrev hbmTy0_1 (i : Nat) : BufTy := match i % 128 with
  | 0 => ⟨S64, .f32⟩
  | 1 => ⟨S64, .f32⟩
  | 2 => ⟨S64x1, .f32⟩
  | 3 => ⟨S64x256, .f32⟩
  | 4 => ⟨S64x256, .f32⟩
  | 5 => ⟨S64x128, .f32⟩
  | 6 => ⟨S1x128, .f32⟩
  | 7 => ⟨S64x128, .f32⟩
  | 8 => ⟨S64x128, .f32⟩
  | 9 => ⟨S_, .f32⟩
  | 10 => ⟨S64x128, .f32⟩
  | 11 => ⟨S64x128, .f32⟩
  | 12 => ⟨S64x64, .f32⟩
  | 13 => ⟨S1x64, .f32⟩
  | 14 => ⟨S64x64, .f32⟩
  | 15 => ⟨S64x64, .f32⟩
  | 16 => ⟨S_, .f32⟩
  | 17 => ⟨S64x64, .f32⟩
  | 18 => ⟨S64x64, .f32⟩
  | 19 => ⟨S64x1, .f32⟩
  | 20 => ⟨S1x1, .f32⟩
  | 21 => ⟨S64x1, .f32⟩
  | 22 => ⟨S64x1, .f32⟩
  | 23 => ⟨S64, .f32⟩
  | 24 => ⟨S64x1, .f32⟩
  | 25 => ⟨S1x1, .f32⟩
  | 26 => ⟨S64x1, .f32⟩
  | 27 => ⟨S64x1, .f32⟩
  | 28 => ⟨S64, .f32⟩
  | 29 => ⟨S64x1, .f32⟩
  | 30 => ⟨S1x1, .f32⟩
  | 31 => ⟨S64x1, .f32⟩
  | 32 => ⟨S64x1, .f32⟩
  | 33 => ⟨S64, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_call0_cst : Ref sig .tc := ⟨.hbm, 38, rfl⟩
abbrev main_call0_v0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call1_cst : Ref sig .tc := ⟨.hbm, 59, rfl⟩
abbrev main_call1_v0 : Ref sig .tc := ⟨.hbm, 60, rfl⟩
abbrev main_v25 : Ref sig .tc := ⟨.hbm, 61, rfl⟩
abbrev main_cst : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call2_cst : Ref sig .tc := ⟨.hbm, 71, rfl⟩
abbrev main_call2_v0 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call3_cst : Ref sig .tc := ⟨.hbm, 78, rfl⟩
abbrev main_call3_v0 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_1 : Ref sig .tc := ⟨.hbm, 85, rfl⟩
abbrev main_v44 : Ref sig .tc := ⟨.hbm, 86, rfl⟩
abbrev main_v45 : Ref sig .tc := ⟨.hbm, 87, rfl⟩
abbrev main_c_2 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_call4_cst : Ref sig .tc := ⟨.hbm, 95, rfl⟩
abbrev main_call4_v0 : Ref sig .tc := ⟨.hbm, 96, rfl⟩
abbrev main_v52 : Ref sig .tc := ⟨.hbm, 97, rfl⟩
abbrev main_cst_3 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_call5_cst : Ref sig .tc := ⟨.hbm, 107, rfl⟩
abbrev main_call5_v0 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_call6_cst : Ref sig .tc := ⟨.hbm, 114, rfl⟩
abbrev main_call6_v0 : Ref sig .tc := ⟨.hbm, 115, rfl⟩
abbrev main_v66 : Ref sig .tc := ⟨.hbm, 116, rfl⟩
abbrev main_cst_4 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_5 : Ref sig .tc := ⟨.hbm, 121, rfl⟩
abbrev main_v70 : Ref sig .tc := ⟨.hbm, 122, rfl⟩
abbrev main_cst_6 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_7 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_call7_cst : Ref sig .tc := ⟨.hbm, 137, rfl⟩
abbrev main_call7_v0 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_call8_cst : Ref sig .tc := ⟨.hbm, 144, rfl⟩
abbrev main_call8_v0 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S64_S1x64_1 : S64.BroadcastsInDim S1x64 (![1] : Fin 1 → Fin S1x64.rank)
  bcast_S1x64_S320000x64_0_1 : S1x64.BroadcastsInDim S320000x64 (![0, 1] : Fin 2 → Fin S320000x64.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x64 : S_.BroadcastsInDim S320000x64 (![] : Fin 0 → Fin S320000x64.rank)
  bcast_S_S20000x64 : S_.BroadcastsInDim S20000x64 (![] : Fin 0 → Fin S20000x64.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S_S64x256 : S_.BroadcastsInDim S64x256 (![] : Fin 0 → Fin S64x256.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S320000x16_S16x256_S320000x256_1_0_0_1_n_n_wf : DotDims.WF S320000x16 S16x256 S320000x256 [1] [0] [0] [1] [] []
  dot_S320000x256_S256x256_S320000x256_1_0_0_1_n_n_wf : DotDims.WF S320000x256 S256x256 S320000x256 [1] [0] [0] [1] [] []
  dot_S320000x256_S256x64_S320000x64_1_0_0_1_n_n_wf : DotDims.WF S320000x256 S256x64 S320000x64 [1] [0] [0] [1] [] []
  gather_S20000x64_S320000x1_S320000x64_1_0_n_n_0_1_164_wf : GatherDims.WF S20000x64 S320000x1 S320000x64 [1] [0] [] [0] [] 1 ![1, 64]
  scatter_S20000x64_S320000x1_S320000x64_1_0_0_1_wf : ScatterDims.WF S20000x64 S320000x1 S320000x64 [1] [0] [0] 1
  dot_S20000x64_S64x256_S20000x256_1_0_0_1_n_n_wf : DotDims.WF S20000x64 S64x256 S20000x256 [1] [0] [0] [1] [] []
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S64x256_S20000x1_S20000x256_1_0_0_1_wf : ScatterDims.WF S64x256 S20000x1 S20000x256 [1] [0] [0] 1
  scatter_S64_S20000x1_S20000_n_0_0_1_wf : ScatterDims.WF S64 S20000x1 S20000 [] [0] [0] 1
  dot_S64x256_S256x128_S64x128_1_0_0_1_n_n_wf : DotDims.WF S64x256 S256x128 S64x128 [1] [0] [0] [1] [] []
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def dot_S320000x16_S16x256_S320000x256_1_0_0_1_n_n : DotDims S320000x16 S16x256 S320000x256 where
  lhsContracting := [1]
  rhsContracting := [0]
  lhsNonContracting := [0]
  rhsNonContracting := [1]
  lhsBatch := []
  rhsBatch := []
  wf := dot_S320000x16_S16x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x256_S256x64_S320000x64_1_0_0_1_n_n : DotDims S320000x256 S256x64 S320000x64 where
  lhsContracting := [1]
  rhsContracting := [0]
  lhsNonContracting := [0]
  rhsNonContracting := [1]
  lhsBatch := []
  rhsBatch := []
  wf := dot_S320000x256_S256x64_S320000x64_1_0_0_1_n_n_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf
def dot_S20000x64_S64x256_S20000x256_1_0_0_1_n_n : DotDims S20000x64 S64x256 S20000x256 where
  lhsContracting := [1]
  rhsContracting := [0]
  lhsNonContracting := [0]
  rhsNonContracting := [1]
  lhsBatch := []
  rhsBatch := []
  wf := dot_S20000x64_S64x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S64x256_S20000x1_S20000x256_1_0_0_1 : ScatterDims S64x256 S20000x1 S20000x256 where
  updateWindowDims := [1]
  insertedWindowDims := [0]
  scatterDimsToOperandDims := [0]
  indexVectorDim := 1
  wf := scatter_S64x256_S20000x1_S20000x256_1_0_0_1_wf
def scatter_S64_S20000x1_S20000_n_0_0_1 : ScatterDims S64 S20000x1 S20000 where
  updateWindowDims := []
  insertedWindowDims := [0]
  scatterDimsToOperandDims := [0]
  indexVectorDim := 1
  wf := scatter_S64_S20000x1_S20000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KernelRun.lean ====
/-
  The kernel program's run with its results named: every weakly fair execution terminates, nothing faulting, with each of
  the three result buffers at what the last stretch of host operations leaves there (the fold of the program's host
  stretches and kernels over the launch memory) and the argument arrays as launched. The program is the sequence of its
  fifteen segments; the final thread state holds every buffer at the fold's last valuation, and the three results and
  the thirty arguments are read off it.
-/
import proofs.«130825_j472446402724_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the three results at the last valuation of the fold, the arguments as launched. -/
theorem run : θ_run defs (onTc (τ := τ) (main (F := F))) ⟨m, fun _ => 0, ρ⟩ (fun r => ∀ c : Dev nD,
      r.2.mem ((c.tc : Thread nD τ).loc main_v65) = W15 m ρ c (Proc.devRef .tc main_v65)
      ∧ r.2.mem ((c.tc : Thread nD τ).loc main_v70) = W15 m ρ c (Proc.devRef .tc main_v70)
      ∧ r.2.mem ((c.tc : Thread nD τ).loc main_v75) = W15 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v65 (by decide)),
       h c _ (mem_uc main_v70 (by decide)),
       h c _ (mem_uc main_v75 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c),
       (h c _ (mem_uc main_arg25 (by decide))).trans (W15_main_arg25 m ρ c),
       (h c _ (mem_uc main_arg26 (by decide))).trans (W15_main_arg26 m ρ c),
       (h c _ (mem_uc main_arg27 (by decide))).trans (W15_main_arg27 m ρ c),
       (h c _ (mem_uc main_arg28 (by decide))).trans (W15_main_arg28 m ρ c),
       (h c _ (mem_uc main_arg29 (by decide))).trans (W15_main_arg29 m ρ c)⟩)

end Cert.KernelIdeal.ValueRun

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibRowLayers.lean ====
/-
  One dense layer of a multilayer network, read one row at a time over the extended reals.

  A dense layer sends a row `r` (of length K) to the row whose entry q is `∑ k, r k · W (k, q) + b q`: a product with a
  weight matrix and a bias added. Because entry (a, q) of `X · W + b` only looks at row a of `X`, a row block of the
  product can be computed from the same row block of `X`: this is what lets a kernel that walks over row blocks agree
  with one whole-matrix product. The layer is met in two spellings.

  * The accumulating spelling multiplies into a zero accumulator and stretches a one-row bias down the rows.
  * The host spelling uses the plain product and stretches the one-row bias by a dimension map.

  Both are read here at an entry (a, q) as `dense` of row a of the left operand. The rectifier `max · 0` is likewise met
  as a maximum with a splat of zero and as a maximum with a scalar zero stretched to the whole shape.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«130825_j472446402724_2_alg».proof.Proof.LibColumnBlocks
import proofs.«130825_j472446402724_2_alg».proof.Proof.LibCastForms

/-- For a literal product record `d` of two matrices: the left operand's row coordinate is the result's row coordinate. -/
macro "dot_lhs0" d:ident : tactic =>
  `(tactic| (intro j k
             unfold Idealize.ShloMosaic.DotDims.lhsIdx
             rw [dif_neg (show ¬(0 : Fin 2) ∈ ($d).lhsBatch by decide), dif_pos (show (0 : Fin 2) ∈ ($d).lhsNonContracting by decide)]
             rfl))

/-- For a literal product record `d` of two matrices: the right operand's column coordinate is the result's column coordinate. -/
macro "dot_rhs1" d:ident : tactic =>
  `(tactic| (intro j k
             unfold Idealize.ShloMosaic.DotDims.rhsIdx
             rw [dif_neg (show ¬(1 : Fin 2) ∈ ($d).rhsBatch by decide), dif_pos (show (1 : Fin 2) ∈ ($d).rhsNonContracting by decide)]
             rfl))

noncomputable section

namespace Cert.LibRowLayers

open Idealize.ShloMosaic Idealize.ShloMosaic.ValueIdx

/-- Entry q of the dense layer's image of the row `r`: `∑ k, r k · W (k, q) + b q`. -/
def dense {K H : ℕ} (r : Fin K → EReal) (W : (⟨2, ![K, H]⟩ : Shape).Idx → EReal) (b : Fin H → EReal) (q : Fin H) : EReal :=
  (∑ k : Fin K, r k * W (ix2 k q)) + b q

/-- The layer's value only depends on the row's entries. -/
theorem dense_congr {K H : ℕ} {r r' : Fin K → EReal} (W : (⟨2, ![K, H]⟩ : Shape).Idx → EReal) {b b' : Fin H → EReal} (q : Fin H)
    (hr : ∀ k, r k = r' k) (hb : b q = b' q) : dense r W b q = dense r' W b' q := by
  unfold dense
  rw [hb]
  exact congrArg (· + b' q) (Finset.sum_congr rfl fun k _ => by rw [hr k])

section Forms
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The accumulating spelling at (p, q): the layer applied to row p of the left operand. -/
theorem tile_dense (prec : Option ContractPrecision) (x : FVec Ideal ⟨2, ![A, K]⟩ φ₁) (w : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    addf (matmul d prec x w (constant ⟨2, ![A, B]⟩ .f32 0x00000000#32)) (broadcastTo ⟨2, ![A, B]⟩ b hb) (ix2 p q)
      = dense (fun k => x (ix2 p k)) w (fun j => b (ix2 (0 : Fin 1) j)) q := by
  rw [addf_apply, LibColumnBlocks.matmul_zero_apply d hr hs hlc hrc hl0 hr1 x w p q prec, broadcastTo_1b_ab_apply b hb p q]
  rfl

include hr hs hlc hrc hl0 hr1 in
/-- The host spelling at (a, q): the layer applied to row a of the left operand. -/
theorem host_dense (prec : Option ContractPrecision) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2)) (a : Fin A) (q : Fin B) :
    addf (Host.dotGeneral d prec x w) (broadcastInDim ⟨2, ![A, B]⟩ (![0, 1] : Fin 2 → Fin 2) hb b) (ix2 a q)
      = dense (fun k => x (ix2 a k)) w (fun j => b (ix2 (0 : Fin 1) j)) q := by
  rw [addf_apply, LibColumnBlocks.hostDot_apply d hr hs hlc hrc hl0 hr1 x w a q prec, LibCastForms.bcast_1b_ab_apply b hb a q]
  rfl

end Forms

/-- The rectifier as a maximum with a splat of zero. -/
theorem tile_relu {s : Shape} (v : FVec Ideal s .f32) (i : s.Idx) :
    maximumf v (broadcast s (Scalar.ofBits (F := Ideal) .f32 0x00000000#32)) i = max (v i) 0 := by
  rw [maximumf_apply, broadcast_apply]
  show max _ (Ideal.ofBits .f32 0x00000000#32) = _
  rw [Ideal.ofBits_zero_f32]

/-- The rectifier as a maximum with a scalar zero stretched to the whole shape. -/
theorem host_relu {s : Shape} (v : FVec Ideal s .f32) (hz : (⟨0, ![]⟩ : Shape).BroadcastsInDim s ![]) (i : s.Idx) :
    maximumf v (broadcastInDim s ![] hz (constant (F := Ideal) ⟨0, ![]⟩ .f32 0x00000000#32)) i = max (v i) 0 := by
  rw [maximumf_apply, broadcastInDim_scalar_apply, constant_apply, Ideal.ofBits_zero_f32]

end Cert.LibRowLayers

end
-- ==== Proof.Rows.lean ====
/-
  The three perceptrons of the network, one row at a time.

  Each perceptron is a composition of dense layers (`LibRowLayers.dense`) and rectifiers applied to ONE row: the edge
  perceptron and its projection send an edge's attribute row to its projected row; a node update sends the sum of a
  node's own row and its aggregated messages to its new row. Stated on rows, it is evident that a row of the result
  depends only on the same row of the input, whatever the number of rows computed together.
-/
import proofs.«130825_j472446402724_2_alg».proof.Proof.LibRowLayers

noncomputable section

namespace Cert.Rows

open Idealize.ShloMosaic Idealize.ShloMosaic.ValueIdx Cert.LibRowLayers

/-- The edge perceptron on one attribute row: `relu (r · W1 + b1) · W2 + b2`. -/
def hidden {K : ℕ} (r : Fin K → EReal) (W1 : (⟨2, ![K, 256]⟩ : Shape).Idx → EReal) (b1 : Fin 256 → EReal)
    (W2 : (⟨2, ![256, 256]⟩ : Shape).Idx → EReal) (b2 : Fin 256 → EReal) : Fin 256 → EReal :=
  dense (fun j => max (dense r W1 b1 j) 0) W2 b2

/-- The edge perceptron followed by a projection to width H. -/
def edgeRow {K H : ℕ} (r : Fin K → EReal) (W1 : (⟨2, ![K, 256]⟩ : Shape).Idx → EReal) (b1 : Fin 256 → EReal)
    (W2 : (⟨2, ![256, 256]⟩ : Shape).Idx → EReal) (b2 : Fin 256 → EReal)
    (W3 : (⟨2, ![256, H]⟩ : Shape).Idx → EReal) (b3 : Fin H → EReal) : Fin H → EReal :=
  dense (hidden r W1 b1 W2 b2) W3 b3

/-- A node update on one row: `relu (relu (r · W1 + b1) · W2 + b2)`. -/
def nodeRow {D : ℕ} (r : Fin D → EReal) (W1 : (⟨2, ![D, 256]⟩ : Shape).Idx → EReal) (b1 : Fin 256 → EReal)
    (W2 : (⟨2, ![256, 256]⟩ : Shape).Idx → EReal) (b2 : Fin 256 → EReal) : Fin 256 → EReal :=
  fun q => max (dense (fun j => max (dense r W1 b1 j) 0) W2 b2 q) 0

theorem hidden_congr {K : ℕ} {r r' : Fin K → EReal} (W1 : (⟨2, ![K, 256]⟩ : Shape).Idx → EReal) {b1 b1' : Fin 256 → EReal}
    (W2 : (⟨2, ![256, 256]⟩ : Shape).Idx → EReal) {b2 b2' : Fin 256 → EReal} (hr : ∀ k, r k = r' k)
    (h1 : ∀ j, b1 j = b1' j) (h2 : ∀ j, b2 j = b2' j) (q : Fin 256) :
    hidden r W1 b1 W2 b2 q = hidden r' W1 b1' W2 b2' q := by
  unfold hidden
  exact dense_congr W2 q (fun j => by rw [dense_congr W1 j hr (h1 j)]) (h2 q)

theorem edgeRow_congr {K H : ℕ} {r r' : Fin K → EReal} (W1 : (⟨2, ![K, 256]⟩ : Shape).Idx → EReal) {b1 b1' : Fin 256 → EReal}
    (W2 : (⟨2, ![256, 256]⟩ : Shape).Idx → EReal) {b2 b2' : Fin 256 → EReal}
    (W3 : (⟨2, ![256, H]⟩ : Shape).Idx → EReal) {b3 b3' : Fin H → EReal} (hr : ∀ k, r k = r' k)
    (h1 : ∀ j, b1 j = b1' j) (h2 : ∀ j, b2 j = b2' j) (h3 : ∀ j, b3 j = b3' j) (q : Fin H) :
    edgeRow r W1 b1 W2 b2 W3 b3 q = edgeRow r' W1 b1' W2 b2' W3 b3' q := by
  unfold edgeRow
  exact dense_congr W3 q (fun j => hidden_congr W1 W2 hr h1 h2 j) (h3 q)

theorem nodeRow_congr {D : ℕ} {r r' : Fin D → EReal} (W1 : (⟨2, ![D, 256]⟩ : Shape).Idx → EReal) {b1 b1' : Fin 256 → EReal}
    (W2 : (⟨2, ![256, 256]⟩ : Shape).Idx → EReal) {b2 b2' : Fin 256 → EReal} (hr : ∀ k, r k = r' k)
    (h1 : ∀ j, b1 j = b1' j) (h2 : ∀ j, b2 j = b2' j) (q : Fin 256) :
    nodeRow r W1 b1 W2 b2 q = nodeRow r' W1 b1' W2 b2' q := by
  unfold nodeRow
  rw [dense_congr W2 q (fun j => by rw [dense_congr W1 j hr (h1 j)]) (h2 q)]

end Cert.Rows

end
-- ==== Proof.Tiles.lean ====
/-
  The kernels' bodies at an entry: each body's stored value, read at row p and column q of its block, is the
  corresponding perceptron (`Rows`) of row p of the loaded blocks. A change of float format is the identity on the
  extended reals, a product into a zero accumulator is the plain sum of products, and the one-row bias stretched down
  the rows reads its entry in the column.
-/
import proofs.«130825_j472446402724_2_alg».proof.Proof.Gen.KernelIdeal.Skeleton
import proofs.«130825_j472446402724_2_alg».proof.Proof.Rows

noncomputable section

namespace Cert.KernelIdeal.Tiles

open Idealize.ShloMosaic Idealize.ShloMosaic.ValueIdx Cert.LibRowLayers Cert.KernelIdeal Cert.KernelIdeal.Gen

theorem dA_l : ∀ j k, (dot_S2000x16_S16x256_S2000x256_1_0_0_1_n_n.lhsIdx j k 0).val = (j 0).val := by
  dot_lhs0 dot_S2000x16_S16x256_S2000x256_1_0_0_1_n_n
theorem dA_r : ∀ j k, (dot_S2000x16_S16x256_S2000x256_1_0_0_1_n_n.rhsIdx j k 1).val = (j 1).val := by
  dot_rhs1 dot_S2000x16_S16x256_S2000x256_1_0_0_1_n_n
theorem dB_l : ∀ j k, (dot_S2000x256_S256x256_S2000x256_1_0_0_1_n_n.lhsIdx j k 0).val = (j 0).val := by
  dot_lhs0 dot_S2000x256_S256x256_S2000x256_1_0_0_1_n_n
theorem dB_r : ∀ j k, (dot_S2000x256_S256x256_S2000x256_1_0_0_1_n_n.rhsIdx j k 1).val = (j 1).val := by
  dot_rhs1 dot_S2000x256_S256x256_S2000x256_1_0_0_1_n_n
theorem dC_l : ∀ j k, (dot_S2000x256_S256x64_S2000x64_1_0_0_1_n_n.lhsIdx j k 0).val = (j 0).val := by
  dot_lhs0 dot_S2000x256_S256x64_S2000x64_1_0_0_1_n_n
theorem dC_r : ∀ j k, (dot_S2000x256_S256x64_S2000x64_1_0_0_1_n_n.rhsIdx j k 1).val = (j 1).val := by
  dot_rhs1 dot_S2000x256_S256x64_S2000x64_1_0_0_1_n_n
theorem dD_l : ∀ j k, (dot_S2000x64_S64x256_S2000x256_1_0_0_1_n_n.lhsIdx j k 0).val = (j 0).val := by
  dot_lhs0 dot_S2000x64_S64x256_S2000x256_1_0_0_1_n_n
theorem dD_r : ∀ j k, (dot_S2000x64_S64x256_S2000x256_1_0_0_1_n_n.rhsIdx j k 1).val = (j 1).val := by
  dot_rhs1 dot_S2000x64_S64x256_S2000x256_1_0_0_1_n_n

/-- The edge kernel's hidden rows: entry (p, q) is the edge perceptron of row p of the attribute block. -/
theorem pay1_apply (v0 : Vec Ideal S2000x16 .f32) (v1 : Vec Ideal S16x256 .f32) (v3 : Vec Ideal S1x256 .f32)
    (v11 : Vec Ideal S256x256 .f32) (v13 : Vec Ideal S1x256 .f32) (p : Fin 2000) (q : Fin 256) :
    k0_pay1 (F := Ideal) v0 v1 v3 v11 v13 (ix2 p q)
      = Rows.hidden (fun k => v0 (ix2 p k)) v1 (fun j => v3 (ix2 (0 : Fin 1) j)) v11 (fun j => v13 (ix2 (0 : Fin 1) j)) q := by
  unfold k0_pay1
  rw [shapeCast_self, shapeCast_self]
  refine (tile_dense dot_S2000x256_S256x256_S2000x256_1_0_0_1_n_n rfl rfl rfl rfl dB_l dB_r none _ _ _ _ p q).trans ?_
  unfold Rows.hidden
  refine dense_congr _ q (fun k => ?_) rfl
  rw [truncf_apply, tile_relu]
  exact congrArg (max · 0) (tile_dense dot_S2000x16_S16x256_S2000x256_1_0_0_1_n_n rfl rfl rfl rfl dA_l dA_r none _ _ _ _ p k)

/-- The edge kernel's first result: entry (p, q) is the projected edge row (width 64) of row p. -/
theorem pay2_apply (v0 : Vec Ideal S2000x16 .f32) (v1 : Vec Ideal S16x256 .f32) (v3 : Vec Ideal S1x256 .f32)
    (v11 : Vec Ideal S256x256 .f32) (v13 : Vec Ideal S1x256 .f32) (v19 : Vec Ideal S256x64 .f32) (v21 : Vec Ideal S1x64 .f32)
    (p : Fin 2000) (q : Fin 64) :
    k0_pay2 (F := Ideal) v0 v1 v3 v11 v13 v19 v21 (ix2 p q)
      = Rows.edgeRow (fun k => v0 (ix2 p k)) v1 (fun j => v3 (ix2 (0 : Fin 1) j)) v11 (fun j => v13 (ix2 (0 : Fin 1) j))
          v19 (fun j => v21 (ix2 (0 : Fin 1) j)) q := by
  unfold k0_pay2
  rw [shapeCast_self]
  refine (tile_dense dot_S2000x256_S256x64_S2000x64_1_0_0_1_n_n rfl rfl rfl rfl dC_l dC_r none _ _ _ _ p q).trans ?_
  unfold Rows.edgeRow
  refine dense_congr _ q (fun k => ?_) rfl
  rw [truncf_apply]
  exact pay1_apply v0 v1 v3 v11 v13 p k

/-- The edge kernel's second result: entry (p, q) is the projected edge row (width 256) of row p. -/
theorem pay3_apply (v0 : Vec Ideal S2000x16 .f32) (v1 : Vec Ideal S16x256 .f32) (v3 : Vec Ideal S1x256 .f32)
    (v11 : Vec Ideal S256x256 .f32) (v13 : Vec Ideal S1x256 .f32) (v27 : Vec Ideal S256x256 .f32) (v29 : Vec Ideal S1x256 .f32)
    (p : Fin 2000) (q : Fin 256) :
    k0_pay3 (F := Ideal) v0 v1 v3 v11 v13 v27 v29 (ix2 p q)
      = Rows.edgeRow (fun k => v0 (ix2 p k)) v1 (fun j => v3 (ix2 (0 : Fin 1) j)) v11 (fun j => v13 (ix2 (0 : Fin 1) j))
          v27 (fun j => v29 (ix2 (0 : Fin 1) j)) q := by
  unfold k0_pay3
  rw [shapeCast_self]
  refine (tile_dense dot_S2000x256_S256x256_S2000x256_1_0_0_1_n_n rfl rfl rfl rfl dB_l dB_r none _ _ _ _ p q).trans ?_
  unfold Rows.edgeRow
  refine dense_congr _ q (fun k => ?_) rfl
  rw [truncf_apply]
  exact pay1_apply v0 v1 v3 v11 v13 p k

/-- The first node kernel: entry (p, q) is the node update of the sum of rows p of the node block and the message block. -/
theorem node64_apply (v0 v1 : Vec Ideal S2000x64 .f32) (v4 : Vec Ideal S64x256 .f32) (v6 : Vec Ideal S1x256 .f32)
    (v14 : Vec Ideal S256x256 .f32) (v16 : Vec Ideal S1x256 .f32) (p : Fin 2000) (q : Fin 256) :
    k1_pay1 (F := Ideal) v0 v1 v4 v6 v14 v16 (ix2 p q)
      = Rows.nodeRow (fun k => v0 (ix2 p k) + v1 (ix2 p k)) v4 (fun j => v6 (ix2 (0 : Fin 1) j)) v14 (fun j => v16 (ix2 (0 : Fin 1) j)) q := by
  unfold k1_pay1
  rw [shapeCast_self, shapeCast_self, shapeCast_self, tile_relu]
  unfold Rows.nodeRow
  refine congrArg (max · 0) ?_
  refine (tile_dense dot_S2000x256_S256x256_S2000x256_1_0_0_1_n_n rfl rfl rfl rfl dB_l dB_r none _ _ _ _ p q).trans ?_
  refine dense_congr _ q (fun k => ?_) rfl
  rw [truncf_apply, tile_relu]
  exact congrArg (max · 0) (tile_dense dot_S2000x64_S64x256_S2000x256_1_0_0_1_n_n rfl rfl rfl rfl dD_l dD_r none _ _ _ _ p k)

/-- The second node kernel, likewise at width 256. -/
theorem node256_apply (v0 v2 : Vec Ideal S2000x256 .f32) (v5 : Vec Ideal S256x256 .f32) (v7 : Vec Ideal S1x256 .f32)
    (v15 : Vec Ideal S256x256 .f32) (v17 : Vec Ideal S1x256 .f32) (p : Fin 2000) (q : Fin 256) :
    k2_pay1 (F := Ideal) v0 v2 v5 v7 v15 v17 (ix2 p q)
      = Rows.nodeRow (fun k => v0 (ix2 p k) + v2 (ix2 p k)) v5 (fun j => v7 (ix2 (0 : Fin 1) j)) v15 (fun j => v17 (ix2 (0 : Fin 1) j)) q := by
  unfold k2_pay1
  rw [shapeCast_self, shapeCast_self, shapeCast_self, shapeCast_self, tile_relu]
  unfold Rows.nodeRow
  refine congrArg (max · 0) ?_
  refine (tile_dense dot_S2000x256_S256x256_S2000x256_1_0_0_1_n_n rfl rfl rfl rfl dB_l dB_r none _ _ _ _ p q).trans ?_
  refine dense_congr _ q (fun k => ?_) rfl
  rw [truncf_apply, tile_relu]
  exact congrArg (max · 0) (tile_dense dot_S2000x256_S256x256_S2000x256_1_0_0_1_n_n rfl rfl rfl rfl dB_l dB_r none _ _ _ _ p k)

end Cert.KernelIdeal.Tiles

end
-- ==== Proof.Region0.lean ====
/-
  The edge kernel as a whole: after its 160 grid points, each of its two result arrays holds, at row a, the projected
  edge row computed from row a of the attribute array. A grid point handles 2000 consecutive rows: its attribute block
  and its result blocks sit at the same rows of their arrays, the weight and bias blocks are the whole arrays, and the
  result blocks of the 160 points tile the 320000 rows.
-/
import proofs.«130825_j472446402724_2_alg».proof.Proof.Gen.KernelIdeal.Frame
import proofs.«130825_j472446402724_2_alg».proof.Proof.Tiles

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the attribute block and both result blocks of point t are row block t. -/
theorem idx_facts : ∀ t : Fin cfg0.N, win0_0.index t (0 : Fin 2) = win0_9.index t (0 : Fin 2)
    ∧ win0_10.index t (0 : Fin 2) = win0_9.index t (0 : Fin 2)
    ∧ win0_0.index t (1 : Fin 2) = 0 ∧ win0_9.index t (1 : Fin 2) = 0 ∧ win0_10.index t (1 : Fin 2) = 0
    ∧ win0_9.index t (0 : Fin 2) ≤ 159 :=
  (by decide +kernel : ∀ t : Fin grid0.N, _)

/-- Every row block is some point's. -/
theorem idx_onto : ∀ q0 : Fin 160, ∃ t : Fin cfg0.N, win0_9.index t = ![q0.val, 0] ∧ win0_10.index t = ![q0.val, 0] :=
  (by decide +kernel : ∀ q0 : Fin 160, ∃ t : Fin grid0.N, win0_9.index t = ![q0.val, 0] ∧ win0_10.index t = ![q0.val, 0])

/-- Row a of the first result array: the width-64 projected edge row of row a of the attributes. -/
def G9 (c : Dev nD) : S320000x64.Idx → EReal := fun i =>
  Rows.edgeRow (fun k => V c main_arg3 (ix2 (i 0 : Fin 320000) k)) (V c main_arg4) (fun j => V c main_v4 (ix2 (0 : Fin 1) j))
    (V c main_arg6) (fun j => V c main_v5 (ix2 (0 : Fin 1) j)) (V c main_arg8) (fun j => V c main_v6 (ix2 (0 : Fin 1) j)) (i 1 : Fin 64)

/-- Row a of the second result array: the width-256 projected edge row of row a of the attributes. -/
def G10 (c : Dev nD) : S320000x256.Idx → EReal := fun i =>
  Rows.edgeRow (fun k => V c main_arg3 (ix2 (i 0 : Fin 320000) k)) (V c main_arg4) (fun j => V c main_v4 (ix2 (0 : Fin 1) j))
    (V c main_arg6) (fun j => V c main_v5 (ix2 (0 : Fin 1) j)) (V c main_arg10) (fun j => V c main_v7 (ix2 (0 : Fin 1) j)) (i 1 : Fin 256)

/-- A window whose block is its whole array, at index 0: the block read is the array. -/
theorem whole1 (c : Dev nD) (t : Fin cfg0.N) : iblk0 V c 1 t = V c main_arg4 := by
  funext y
  show V c main_arg4 (((cfg0.win 1).blk t).view.emb y) = V c main_arg4 y
  refine congrArg _ (funext fun a => Fin.ext ?_)
  match a with
  | ⟨0, _⟩ => show 0 * 16 + 1 * (y 0).val = (y 0).val; omega
  | ⟨1, _⟩ => show 0 * 256 + 1 * (y 1).val = (y 1).val; omega

theorem whole2 (c : Dev nD) (t : Fin cfg0.N) : iblk0 V c 2 t = V c main_v4 := by
  funext y
  show V c main_v4 (((cfg0.win 2).blk t).view.emb y) = V c main_v4 y
  refine congrArg _ (funext fun a => Fin.ext ?_)
  match a with
  | ⟨0, _⟩ => show 0 * 1 + 1 * (y 0).val = (y 0).val; omega
  | ⟨1, _⟩ => show 0 * 256 + 1 * (y 1).val = (y 1).val; omega

theorem whole3 (c : Dev nD) (t : Fin cfg0.N) : iblk0 V c 3 t = V c main_arg6 := by
  funext y
  show V c main_arg6 (((cfg0.win 3).blk t).view.emb y) = V c main_arg6 y
  refine congrArg _ (funext fun a => Fin.ext ?_)
  match a with
  | ⟨0, _⟩ => show 0 * 256 + 1 * (y 0).val = (y 0).val; omega
  | ⟨1, _⟩ => show 0 * 256 + 1 * (y 1).val = (y 1).val; omega

theorem whole4 (c : Dev nD) (t : Fin cfg0.N) : iblk0 V c 4 t = V c main_v5 := by
  funext y
  show V c main_v5 (((cfg0.win 4).blk t).view.emb y) = V c main_v5 y
  refine congrArg _ (funext fun a => Fin.ext ?_)
  match a with
  | ⟨0, _⟩ => show 0 * 1 + 1 * (y 0).val = (y 0).val; omega
  | ⟨1, _⟩ => show 0 * 256 + 1 * (y 1).val = (y 1).val; omega

theorem whole5 (c : Dev nD) (t : Fin cfg0.N) : iblk0 V c 5 t = V c main_arg8 := by
  funext y
  show V c main_arg8 (((cfg0.win 5).blk t).view.emb y) = V c main_arg8 y
  refine congrArg _ (funext fun a => Fin.ext ?_)
  match a with
  | ⟨0, _⟩ => show 0 * 256 + 1 * (y 0).val = (y 0).val; omega
  | ⟨1, _⟩ => show 0 * 64 + 1 * (y 1).val = (y 1).val; omega

theorem whole6 (c : Dev nD) (t : Fin cfg0.N) : iblk0 V c 6 t = V c main_v6 := by
  funext y
  show V c main_v6 (((cfg0.win 6).blk t).view.emb y) = V c main_v6 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem whole7 (c : Dev nD) (t : Fin cfg0.N) : iblk0 V c 7 t = V c main_arg10 := by
  funext y
  show V c main_arg10 (((cfg0.win 7).blk t).view.emb y) = V c main_arg10 y
  refine congrArg _ (funext fun a => Fin.ext ?_)
  match a with
  | ⟨0, _⟩ => show 0 * 256 + 1 * (y 0).val = (y 0).val; omega
  | ⟨1, _⟩ => show 0 * 256 + 1 * (y 1).val = (y 1).val; omega

theorem whole8 (c : Dev nD) (t : Fin cfg0.N) : iblk0 V c 8 t = V c main_v7 := by
  funext y
  show V c main_v7 (((cfg0.win 8).blk t).view.emb y) = V c main_v7 y
  refine congrArg _ (funext fun a => Fin.ext ?_)
  match a with
  | ⟨0, _⟩ => show 0 * 1 + 1 * (y 0).val = (y 0).val; omega
  | ⟨1, _⟩ => show 0 * 256 + 1 * (y 1).val = (y 1).val; omega

end Cert.KernelIdeal.Region0

end
-- ==== Proof.Region0a.lean ====
/-
  The edge kernel's first result array, from what each point writes back to the whole array.
-/
import proofs.«130825_j472446402724_2_alg».proof.Proof.Region0

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- What point t writes back to the first result array is block t of `G9`. -/
theorem flushed9_eq (c : Dev nD) (t : Fin cfg0.N) :
    (dat0 V c).flushed 9 t = ((cfg0.win 9).blk t).view.read (Elt Ideal) (G9 V c) := by
  show (cfg0.win 9).cut (grid0.coords t) ((dat0 V c).after 9 t) = _
  rw [after0_9]
  unfold out0_9
  rw [View.canon_unit_zero hz]
  simp only [View.ld_unit_zero (S := S2000x16) hz, View.ld_unit_zero (S := S16x256) hz, View.ld_unit_zero (S := S1x256) hz,
    View.ld_unit_zero (S := S256x256) hz, View.ld_unit_zero (S := S256x64) hz, View.ld_unit_zero (S := S1x64) hz]
  rw [whole1, whole2, whole3, whole4, whole5, whole6]
  funext y
  obtain ⟨p, q, rfl⟩ : ∃ (p : Fin 2000) (q : Fin 64), y = ix2 p q := ⟨y 0, y 1, eq_ix2 y⟩
  show k0_pay2 (F := Ideal) (iblk0 V c 0 t) (V c main_arg4) (V c main_v4) (V c main_arg6) (V c main_v5) (V c main_arg8) (V c main_v6) (ix2 p q)
    = G9 V c (((cfg0.win 9).blk t).view.emb (ix2 p q))
  refine (Tiles.pay2_apply _ _ _ _ _ _ _ p q).trans ?_
  unfold G9
  obtain ⟨e0, e1, e2, e3, e4, e5⟩ := idx_facts t
  have hq : ((((cfg0.win 9).blk t).view.emb (ix2 p q)) 1 : Fin 64) = q :=
    Fin.ext (by show win0_9.index t (1 : Fin 2) * 64 + 1 * q.val = q.val; omega)
  rw [hq]
  refine Rows.edgeRow_congr _ _ _ (fun k => ?_) (fun _ => rfl) (fun _ => rfl) (fun _ => rfl) q
  show V c main_arg3 (((cfg0.win 0).blk t).view.emb (ix2 p k)) = V c main_arg3 (ix2 _ k)
  refine congrArg _ (funext fun a => Fin.ext ?_)
  match a with
  | ⟨0, _⟩ => show win0_0.index t (0 : Fin 2) * 2000 + 1 * p.val = win0_9.index t (0 : Fin 2) * 2000 + 1 * p.val; omega
  | ⟨1, _⟩ => show win0_0.index t (1 : Fin 2) * 16 + 1 * k.val = k.val; omega

/-- An index of the array is in point t's block iff each coordinate is in the block's range on its axis. -/
theorem mem_blk9 (t : Fin cfg0.N) (i : S320000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v8_0).slice (win0_9.rect t)).set ↔ _
  rw [View.set_slice_whole, Rect.mem_set_unit]
  exact Iff.rfl

/-- The 160 blocks of 2000 rows tile the array: row a is in block a / 2000. -/
theorem cover9 (i : S320000x64.Idx) : ∃ t : Fin cfg0.N, (cfg0.win 9).flush t = true ∧ i ∈ ((cfg0.win 9).blk t).view.set := by
  have hi0 : (i 0).val < 320000 := (i 0).isLt
  have hi1 : (i 1).val < 64 := (i 1).isLt
  obtain ⟨t, ht9, ht10⟩ := idx_onto ⟨(i 0).val / 2000, by omega⟩
  have q0 : win0_9.index t (0 : Fin 2) = (i 0).val / 2000 := congrFun ht9 0
  have q1 : win0_9.index t (1 : Fin 2) = 0 := congrFun ht9 1
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 64 ≤ (i 1).val ∧ (i 1).val < win0_9.index t (1 : Fin 2) * 64 + 64; omega

/-- The array after the region: `G9` of the arrays the region found. -/
theorem final9 (c : Dev nD) : (dat0 V c).arrAt 9 cfg0.N = G9 V c :=
  (dat0 V c).arrAt_eq_of_cover 9 (G9 V c) (fun t _ => flushed9_eq V c t) cover9

end Cert.KernelIdeal.Region0

end
-- ==== Proof.Region0b.lean ====
/-
  The edge kernel's second result array, from what each point writes back to the whole array.
-/
import proofs.«130825_j472446402724_2_alg».proof.Proof.Region0

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- What point t writes back to the second result array is block t of `G10`. -/
theorem flushed10_eq (c : Dev nD) (t : Fin cfg0.N) :
    (dat0 V c).flushed 10 t = ((cfg0.win 10).blk t).view.read (Elt Ideal) (G10 V c) := by
  show (cfg0.win 10).cut (grid0.coords t) ((dat0 V c).after 10 t) = _
  rw [after0_10]
  unfold out0_10
  rw [View.canon_unit_zero hz]
  simp only [View.ld_unit_zero (S := S2000x16) hz, View.ld_unit_zero (S := S16x256) hz, View.ld_unit_zero (S := S1x256) hz,
    View.ld_unit_zero (S := S256x256) hz, View.ld_unit_zero (S := S256x64) hz, View.ld_unit_zero (S := S1x64) hz]
  rw [whole1, whole2, whole3, whole4, whole7, whole8]
  funext y
  obtain ⟨p, q, rfl⟩ : ∃ (p : Fin 2000) (q : Fin 256), y = ix2 p q := ⟨y 0, y 1, eq_ix2 y⟩
  show k0_pay3 (F := Ideal) (iblk0 V c 0 t) (V c main_arg4) (V c main_v4) (V c main_arg6) (V c main_v5) (V c main_arg10) (V c main_v7) (ix2 p q)
    = G10 V c (((cfg0.win 10).blk t).view.emb (ix2 p q))
  refine (Tiles.pay3_apply _ _ _ _ _ _ _ p q).trans ?_
  unfold G10
  obtain ⟨e0, e1, e2, e3, e4, e5⟩ := idx_facts t
  have hq : ((((cfg0.win 10).blk t).view.emb (ix2 p q)) 1   : Fin 256) = q :=
    Fin.ext (by show win0_10.index t (1 : Fin 2) * 256 + 1 * q.val = q.val; omega)
  rw [hq]
  refine Rows.edgeRow_congr _ _ _ (fun k => ?_) (fun _ => rfl) (fun _ => rfl) (fun _ => rfl) q
  show V c main_arg3 (((cfg0.win 0).blk t).view.emb (ix2 p k)) = V c main_arg3 (ix2 _ k)
  refine congrArg _ (funext fun a => Fin.ext ?_)
  match a with
  | ⟨0, _⟩ => show win0_0.index t (0 : Fin 2) * 2000 + 1 * p.val = win0_10.index t (0 : Fin 2) * 2000 + 1 * p.val; omega
  | ⟨1, _⟩ => show win0_0.index t (1 : Fin 2) * 16 + 1 * k.val = k.val; omega

/-- An index of the array is in point t's block iff each coordinate is in the block's range on its axis. -/
theorem mem_blk10 (t : Fin cfg0.N) (i : S320000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v8_1).slice (win0_10.rect t)).set ↔ _
  rw [View.set_slice_whole, Rect.mem_set_unit]
  exact Iff.rfl

/-- The 160 blocks of 2000 rows tile the array: row a is in block a / 2000. -/
theorem cover10 (i : S320000x256.Idx) : ∃ t : Fin cfg0.N, (cfg0.win 10).flush t = true ∧ i ∈ ((cfg0.win 10).blk t).view.set := by
  have hi0 : (i 0).val < 320000 := (i 0).isLt
  have hi1 : (i 1).val < 256 := (i 1).isLt
  obtain ⟨t, ht9, ht10⟩ := idx_onto ⟨(i 0).val / 2000, by omega⟩
  have q0 : win0_10.index t (0 : Fin 2) = (i 0).val / 2000 := congrFun ht10 0
  have q1 : win0_10.index t (1 : Fin 2) = 0 := congrFun ht10 1
  refine ⟨t, flush0_10 t, ?_⟩
  rw [mem_blk10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 256 ≤ (i 1).val ∧ (i 1).val < win0_10.index t (1 : Fin 2) * 256 + 256; omega

/-- The array after the region: `G10` of the arrays the region found. -/
theorem final10 (c : Dev nD) : (dat0 V c).arrAt 10 cfg0.N = G10 V c :=
  (dat0 V c).arrAt_eq_of_cover 10 (G10 V c) (fun t _ => flushed10_eq V c t) cover10

end Cert.KernelIdeal.Region0

end
-- ==== Proof.Region1.lean ====
/-
  The first node kernel as a whole: after its 10 grid points its result array holds, at row a, the node update of row a of
  the node array plus row a of the message array. A grid point handles 2000 consecutive rows, the weight and bias blocks
  are the whole arrays, and the result blocks of the 10 points tile the 20000 rows.
-/
import proofs.«130825_j472446402724_2_alg».proof.Proof.Gen.KernelIdeal.Frame
import proofs.«130825_j472446402724_2_alg».proof.Proof.Tiles

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node block, the message block and the result block of point t are row block t. -/
theorem idx_facts : ∀ t : Fin cfg1.N, win1_0.index t (0 : Fin 2) = win1_6.index t (0 : Fin 2)
    ∧ win1_1.index t (0 : Fin 2) = win1_6.index t (0 : Fin 2)
    ∧ win1_0.index t (1 : Fin 2) = 0 ∧ win1_1.index t (1 : Fin 2) = 0 ∧ win1_6.index t (1 : Fin 2) = 0
    ∧ win1_6.index t (0 : Fin 2) ≤ 9 :=
  (by decide +kernel : ∀ t : Fin grid1.N, _)

/-- Every row block is some point's. -/
theorem idx_onto : ∀ q0 : Fin 10, ∃ t : Fin cfg1.N, win1_6.index t = ![q0.val, 0] :=
  (by decide +kernel : ∀ q0 : Fin 10, ∃ t : Fin grid1.N, win1_6.index t = ![q0.val, 0])

/-- Row a of the result array: the node update of the sum of row a of the node array and row a of the message array. -/
def rowsOf (x g : S20000x64.Idx → EReal) (w1 : S64x256.Idx → EReal) (b1 : S1x256.Idx → EReal) (w2 : S256x256.Idx → EReal)
    (b2 : S1x256.Idx → EReal) : S20000x256.Idx → EReal := fun i =>
  Rows.nodeRow (fun k => x (ix2 (i 0 : Fin 20000) k) + g (ix2 (i 0 : Fin 20000) k)) w1
    (fun j => b1 (ix2 (0 : Fin 1) j)) w2 (fun j => b2 (ix2 (0 : Fin 1) j)) (i 1 : Fin 256)

/-- The result array in terms of the arrays the region finds. -/
def G6 (c : Dev nD) : S20000x256.Idx → EReal :=
  rowsOf (V c main_arg0) (V c main_v20) (V c main_arg12) (V c main_v21) (V c main_arg14) (V c main_v22)

theorem whole2 (c : Dev nD) (t : Fin cfg1.N) : iblk1 V c 2 t = V c main_arg12 := by
  funext y
  show V c main_arg12 (((cfg1.win 2).blk t).view.emb y) = V c main_arg12 y
  refine congrArg _ (funext fun a => Fin.ext ?_)
  match a with
  | ⟨0, _⟩ => show 0 * 64 + 1 * (y 0).val = (y 0).val; omega
  | ⟨1, _⟩ => show 0 * 256 + 1 * (y 1).val = (y 1).val; omega

theorem whole3 (c : Dev nD) (t : Fin cfg1.N) : iblk1 V c 3 t = V c main_v21 := by
  funext y
  show V c main_v21 (((cfg1.win 3).blk t).view.emb y) = V c main_v21 y
  refine congrArg _ (funext fun a => Fin.ext ?_)
  match a with
  | ⟨0, _⟩ => show 0 * 1 + 1 * (y 0).val = (y 0).val; omega
  | ⟨1, _⟩ => show 0 * 256 + 1 * (y 1).val = (y 1).val; omega

theorem whole4 (c : Dev nD) (t : Fin cfg1.N) : iblk1 V c 4 t = V c main_arg14 := by
  funext y
  show V c main_arg14 (((cfg1.win 4).blk t).view.emb y) = V c main_arg14 y
  refine congrArg _ (funext fun a => Fin.ext ?_)
  match a with
  | ⟨0, _⟩ => show 0 * 256 + 1 * (y 0).val = (y 0).val; omega
  | ⟨1, _⟩ => show 0 * 256 + 1 * (y 1).val = (y 1).val; omega

theorem whole5 (c : Dev nD) (t : Fin cfg1.N) : iblk1 V c 5 t = V c main_v22 := by
  funext y
  show V c main_v22 (((cfg1.win 5).blk t).view.emb y) = V c main_v22 y
  refine congrArg _ (funext fun a => Fin.ext ?_)
  match a with
  | ⟨0, _⟩ => show 0 * 1 + 1 * (y 0).val = (y 0).val; omega
  | ⟨1, _⟩ => show 0 * 256 + 1 * (y 1).val = (y 1).val; omega

/-- What point t writes back is block t of `G6`. -/
theorem flushed6_eq (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  unfold out1_6
  rw [View.canon_unit_zero hz]
  simp only [View.ld_unit_zero (S := S2000x64) hz, View.ld_unit_zero (S := S64x256) hz, View.ld_unit_zero (S := S1x256) hz, View.ld_unit_zero (S := S256x256) hz]
  rw [whole2, whole3, whole4, whole5]
  funext y
  obtain ⟨p, q, rfl⟩ : ∃ (p : Fin 2000) (q : Fin 256), y = ix2 p q := ⟨y 0, y 1, eq_ix2 y⟩
  show k1_pay1 (F := Ideal) (iblk1 V c 0 t) (iblk1 V c 1 t) (V c main_arg12) (V c main_v21) (V c main_arg14) (V c main_v22) (ix2 p q)
    = G6 V c (((cfg1.win 6).blk t).view.emb (ix2 p q))
  refine (Tiles.node64_apply _ _ _ _ _ _ p q).trans ?_
  unfold G6 rowsOf
  obtain ⟨e0, e1, e2, e3, e4, e5⟩ := idx_facts t
  have hq : ((((cfg1.win 6).blk t).view.emb (ix2 p q)) 1 : Fin 256) = q :=
    Fin.ext (by show win1_6.index t (1 : Fin 2) * 256 + 1 * q.val = q.val; omega)
  rw [hq]
  refine Rows.nodeRow_congr _ _ (fun k => ?_) (fun _ => rfl) (fun _ => rfl) q
  have h0 : ((cfg1.win 0).blk t).view.emb (ix2 p k) = ix2 ((((cfg1.win 6).blk t).view.emb (ix2 p q)) 0 : Fin 20000) k :=
    funext fun a => Fin.ext (by
      match a with
      | ⟨0, _⟩ => show win1_0.index t (0 : Fin 2) * 2000 + 1 * p.val = win1_6.index t (0 : Fin 2) * 2000 + 1 * p.val; omega
      | ⟨1, _⟩ => show win1_0.index t (1 : Fin 2) * 64 + 1 * k.val = k.val; omega)
  have h1 : ((cfg1.win 1).blk t).view.emb (ix2 p k) = ix2 ((((cfg1.win 6).blk t).view.emb (ix2 p q)) 0 : Fin 20000) k :=
    funext fun a => Fin.ext (by
      match a with
      | ⟨0, _⟩ => show win1_1.index t (0 : Fin 2) * 2000 + 1 * p.val = win1_6.index t (0 : Fin 2) * 2000 + 1 * p.val; omega
      | ⟨1, _⟩ => show win1_1.index t (1 : Fin 2) * 64 + 1 * k.val = k.val; omega)
  exact congrArg₂ (fun a b : EReal => a + b) (congrArg (V c main_arg0) h0) (congrArg (V c main_v20) h1)

/-- An index of the array is in point t's block iff each coordinate is in the block's range on its axis. -/
theorem mem_blk6 (t : Fin cfg1.N) (i : S20000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v23).slice (win1_6.rect t)).set ↔ _
  rw [View.set_slice_whole, Rect.mem_set_unit]
  exact Iff.rfl

/-- The 10 blocks of 2000 rows tile the array: row a is in block a / 2000. -/
theorem cover6 (i : S20000x256.Idx) : ∃ t : Fin cfg1.N, (cfg1.win 6).flush t = true ∧ i ∈ ((cfg1.win 6).blk t).view.set := by
  have hi0 : (i 0).val < 20000 := (i 0).isLt
  have hi1 : (i 1).val < 256 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- The array after the region: `G6` of the arrays the region found. -/
theorem final6 (c : Dev nD) : (dat1 V c).arrAt 6 cfg1.N = G6 V c :=
  (dat1 V c).arrAt_eq_of_cover 6 (G6 V c) (fun t _ => flushed6_eq V c t) cover6

end Cert.KernelIdeal.Region1

end
-- ==== Proof.Region2.lean ====
/-
  The second node kernel as a whole: after its 10 grid points its result array holds, at row a, the node update of row a of
  the node array plus row a of the message array. A grid point handles 2000 consecutive rows, the weight and bias blocks
  are the whole arrays, and the result blocks of the 10 points tile the 20000 rows.
-/
import proofs.«130825_j472446402724_2_alg».proof.Proof.Gen.KernelIdeal.Frame
import proofs.«130825_j472446402724_2_alg».proof.Proof.Tiles

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node block, the message block and the result block of point t are row block t. -/
theorem idx_facts : ∀ t : Fin cfg2.N, win2_0.index t (0 : Fin 2) = win2_6.index t (0 : Fin 2)
    ∧ win2_1.index t (0 : Fin 2) = win2_6.index t (0 : Fin 2)
    ∧ win2_0.index t (1 : Fin 2) = 0 ∧ win2_1.index t (1 : Fin 2) = 0 ∧ win2_6.index t (1 : Fin 2) = 0
    ∧ win2_6.index t (0 : Fin 2) ≤ 9 :=
  (by decide +kernel : ∀ t : Fin grid2.N, _)

/-- Every row block is some point's. -/
theorem idx_onto : ∀ q0 : Fin 10, ∃ t : Fin cfg2.N, win2_6.index t = ![q0.val, 0] :=
  (by decide +kernel : ∀ q0 : Fin 10, ∃ t : Fin grid2.N, win2_6.index t = ![q0.val, 0])

/-- Row a of the result array: the node update of the sum of row a of the node array and row a of the message array. -/
def rowsOf (x g : S20000x256.Idx → EReal) (w1 : S256x256.Idx → EReal) (b1 : S1x256.Idx → EReal) (w2 : S256x256.Idx → EReal)
    (b2 : S1x256.Idx → EReal) : S20000x256.Idx → EReal := fun i =>
  Rows.nodeRow (fun k => x (ix2 (i 0 : Fin 20000) k) + g (ix2 (i 0 : Fin 20000) k)) w1
    (fun j => b1 (ix2 (0 : Fin 1) j)) w2 (fun j => b2 (ix2 (0 : Fin 1) j)) (i 1 : Fin 256)

/-- The result array in terms of the arrays the region finds. -/
def G6 (c : Dev nD) : S20000x256.Idx → EReal :=
  rowsOf (V c main_v23) (V c main_v35) (V c main_arg16) (V c main_v36) (V c main_arg18) (V c main_v37)

theorem whole2 (c : Dev nD) (t : Fin cfg2.N) : iblk2 V c 2 t = V c main_arg16 := by
  funext y
  show V c main_arg16 (((cfg2.win 2).blk t).view.emb y) = V c main_arg16 y
  refine congrArg _ (funext fun a => Fin.ext ?_)
  match a with
  | ⟨0, _⟩ => show 0 * 256 + 1 * (y 0).val = (y 0).val; omega
  | ⟨1, _⟩ => show 0 * 256 + 1 * (y 1).val = (y 1).val; omega

theorem whole3 (c : Dev nD) (t : Fin cfg2.N) : iblk2 V c 3 t = V c main_v36 := by
  funext y
  show V c main_v36 (((cfg2.win 3).blk t).view.emb y) = V c main_v36 y
  refine congrArg _ (funext fun a => Fin.ext ?_)
  match a with
  | ⟨0, _⟩ => show 0 * 1 + 1 * (y 0).val = (y 0).val; omega
  | ⟨1, _⟩ => show 0 * 256 + 1 * (y 1).val = (y 1).val; omega

theorem whole4 (c : Dev nD) (t : Fin cfg2.N) : iblk2 V c 4 t = V c main_arg18 := by
  funext y
  show V c main_arg18 (((cfg2.win 4).blk t).view.emb y) = V c main_arg18 y
  refine congrArg _ (funext fun a => Fin.ext ?_)
  match a with
  | ⟨0, _⟩ => show 0 * 256 + 1 * (y 0).val = (y 0).val; omega
  | ⟨1, _⟩ => show 0 * 256 + 1 * (y 1).val = (y 1).val; omega

theorem whole5 (c : Dev nD) (t : Fin cfg2.N) : iblk2 V c 5 t = V c main_v37 := by
  funext y
  show V c main_v37 (((cfg2.win 5).blk t).view.emb y) = V c main_v37 y
  refine congrArg _ (funext fun a => Fin.ext ?_)
  match a with
  | ⟨0, _⟩ => show 0 * 1 + 1 * (y 0).val = (y 0).val; omega
  | ⟨1, _⟩ => show 0 * 256 + 1 * (y 1).val = (y 1).val; omega

/-- What point t writes back is block t of `G6`. -/
theorem flushed6_eq (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6]
  unfold out2_6
  rw [View.canon_unit_zero hz]
  simp only [View.ld_unit_zero (S := S2000x256) hz, View.ld_unit_zero (S := S256x256) hz, View.ld_unit_zero (S := S1x256) hz]
  rw [whole2, whole3, whole4, whole5]
  funext y
  obtain ⟨p, q, rfl⟩ : ∃ (p : Fin 2000) (q : Fin 256), y = ix2 p q := ⟨y 0, y 1, eq_ix2 y⟩
  show k2_pay1 (F := Ideal) (iblk2 V c 0 t) (iblk2 V c 1 t) (V c main_arg16) (V c main_v36) (V c main_arg18) (V c main_v37) (ix2 p q)
    = G6 V c (((cfg2.win 6).blk t).view.emb (ix2 p q))
  refine (Tiles.node256_apply _ _ _ _ _ _ p q).trans ?_
  unfold G6 rowsOf
  obtain ⟨e0, e1, e2, e3, e4, e5⟩ := idx_facts t
  have hq : ((((cfg2.win 6).blk t).view.emb (ix2 p q)) 1 : Fin 256) = q :=
    Fin.ext (by show win2_6.index t (1 : Fin 2) * 256 + 1 * q.val = q.val; omega)
  rw [hq]
  refine Rows.nodeRow_congr _ _ (fun k => ?_) (fun _ => rfl) (fun _ => rfl) q
  have h0 : ((cfg2.win 0).blk t).view.emb (ix2 p k) = ix2 ((((cfg2.win 6).blk t).view.emb (ix2 p q)) 0 : Fin 20000) k :=
    funext fun a => Fin.ext (by
      match a with
      | ⟨0, _⟩ => show win2_0.index t (0 : Fin 2) * 2000 + 1 * p.val = win2_6.index t (0 : Fin 2) * 2000 + 1 * p.val; omega
      | ⟨1, _⟩ => show win2_0.index t (1 : Fin 2) * 256 + 1 * k.val = k.val; omega)
  have h1 : ((cfg2.win 1).blk t).view.emb (ix2 p k) = ix2 ((((cfg2.win 6).blk t).view.emb (ix2 p q)) 0 : Fin 20000) k :=
    funext fun a => Fin.ext (by
      match a with
      | ⟨0, _⟩ => show win2_1.index t (0 : Fin 2) * 2000 + 1 * p.val = win2_6.index t (0 : Fin 2) * 2000 + 1 * p.val; omega
      | ⟨1, _⟩ => show win2_1.index t (1 : Fin 2) * 256 + 1 * k.val = k.val; omega)
  exact congrArg₂ (fun a b : EReal => a + b) (congrArg (V c main_v23) h0) (congrArg (V c main_v35) h1)

/-- An index of the array is in point t's block iff each coordinate is in the block's range on its axis. -/
theorem mem_blk6 (t : Fin cfg2.N) (i : S20000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v38).slice (win2_6.rect t)).set ↔ _
  rw [View.set_slice_whole, Rect.mem_set_unit]
  exact Iff.rfl

/-- The 10 blocks of 2000 rows tile the array: row a is in block a / 2000. -/
theorem cover6 (i : S20000x256.Idx) : ∃ t : Fin cfg2.N, (cfg2.win 6).flush t = true ∧ i ∈ ((cfg2.win 6).blk t).view.set := by
  have hi0 : (i 0).val < 20000 := (i 0).isLt
  have hi1 : (i 1).val < 256 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 256 ≤ (i 1).val ∧ (i 1).val < win2_6.index t (1 : Fin 2) * 256 + 256; omega

/-- The array after the region: `G6` of the arrays the region found. -/
theorem final6 (c : Dev nD) : (dat2 V c).arrAt 6 cfg2.N = G6 V c :=
  (dat2 V c).arrAt_eq_of_cover 6 (G6 V c) (fun t _ => flushed6_eq V c t) cover6

end Cert.KernelIdeal.Region2

end
-- ==== Proof.Net.lean ====
/-
  The network both programs compute, written once as whole-array operations over the extended reals.

  A graph network: every edge's attribute row goes through a two-layer perceptron (`edgeMlp`) and two projections
  (`proj64`, `proj256`); a convolution gathers the source node's row for every edge, adds the projected edge row,
  rectifies, and sums the result into the target node's row (`aggr64`, `aggr256`); a node update adds the node's own row
  and applies a two-layer perceptron with rectifiers (`node64`, `node256`); the nodes of each graph are averaged
  (`pooled`), pass a two-layer trunk (`trunk`), and three linear heads (`headOut`) give the three results.
  The operations are spelt with the host's dimension records, so that the host program's result is this term as it stands.
-/
import proofs.«130825_j472446402724_2_alg».proof.Proof.Gen.ReferenceIdeal
import Idealize.ShloMosaic.PureOps.Ideal

noncomputable section

namespace Cert.Net

open Idealize.ShloMosaic Cert.ReferenceIdeal Cert.ReferenceIdeal.Facts₀

/-- Integer arrays of a shape. -/
abbrev IArr (s : Shape) : Type := (⟨s, .i32⟩ : BufTy).Contents (Elt Ideal)

/-- The thirty argument arrays. -/
structure Args where
  x : FVec Ideal S20000x64 .f32
  edges : IArr S2x320000
  batch : IArr S20000
  attr : FVec Ideal S320000x16 .f32
  ew1 : FVec Ideal S16x256 .f32
  eb1 : FVec Ideal S256 .f32
  ew2 : FVec Ideal S256x256 .f32
  eb2 : FVec Ideal S256 .f32
  p1w : FVec Ideal S256x64 .f32
  p1b : FVec Ideal S64 .f32
  p2w : FVec Ideal S256x256 .f32
  p2b : FVec Ideal S256 .f32
  n1w1 : FVec Ideal S64x256 .f32
  n1b1 : FVec Ideal S256 .f32
  n1w2 : FVec Ideal S256x256 .f32
  n1b2 : FVec Ideal S256 .f32
  n2w1 : FVec Ideal S256x256 .f32
  n2b1 : FVec Ideal S256 .f32
  n2w2 : FVec Ideal S256x256 .f32
  n2b2 : FVec Ideal S256 .f32
  l1w : FVec Ideal S256x128 .f32
  l1b : FVec Ideal S128 .f32
  l2w : FVec Ideal S128x64 .f32
  l2b : FVec Ideal S64 .f32
  hsw : FVec Ideal S64x1 .f32
  hsb : FVec Ideal S1 .f32
  hpw : FVec Ideal S64x1 .f32
  hpb : FVec Ideal S1 .f32
  hnw : FVec Ideal S64x1 .f32
  hnb : FVec Ideal S1 .f32

/-- The edge perceptron: `relu (attr · W1 + b1) · W2 + b2`, one row per edge. -/
def edgeMlp (attr : FVec Ideal S320000x16 .f32) (w1 : FVec Ideal S16x256 .f32) (b1 : FVec Ideal S256 .f32)
    (w2 : FVec Ideal S256x256 .f32) (b2 : FVec Ideal S256 .f32) : FVec Ideal S320000x256 .f32 :=
  addf (Host.dotGeneral dot_S320000x256_S256x256_S320000x256_1_0_0_1_n_n none
      (maximumf (addf (Host.dotGeneral dot_S320000x16_S16x256_S320000x256_1_0_0_1_n_n none attr w1)
          (broadcastInDim S320000x256 ![0, 1] bcast_S1x256_S320000x256_0_1 (broadcastInDim S1x256 ![1] bcast_S256_S1x256_1 b1)))
        (broadcastInDim S320000x256 ![] bcast_S_S320000x256 (constant (F := Ideal) S_ .f32 0x00000000#32)))
      w2)
    (broadcastInDim S320000x256 ![0, 1] bcast_S1x256_S320000x256_0_1 (broadcastInDim S1x256 ![1] bcast_S256_S1x256_1 b2))

/-- The projection of the edge rows to the first convolution's width. -/
def proj64 (ea : FVec Ideal S320000x256 .f32) (w : FVec Ideal S256x64 .f32) (b : FVec Ideal S64 .f32) : FVec Ideal S320000x64 .f32 :=
  addf (Host.dotGeneral dot_S320000x256_S256x64_S320000x64_1_0_0_1_n_n none ea w)
    (broadcastInDim S320000x64 ![0, 1] bcast_S1x64_S320000x64_0_1 (broadcastInDim S1x64 ![1] bcast_S64_S1x64_1 b))

/-- The projection of the edge rows to the second convolution's width. -/
def proj256 (ea : FVec Ideal S320000x256 .f32) (w : FVec Ideal S256x256 .f32) (b : FVec Ideal S256 .f32) : FVec Ideal S320000x256 .f32 :=
  addf (Host.dotGeneral dot_S320000x256_S256x256_S320000x256_1_0_0_1_n_n none ea w)
    (broadcastInDim S320000x256 ![0, 1] bcast_S1x256_S320000x256_0_1 (broadcastInDim S1x256 ![1] bcast_S256_S1x256_1 b))

/-- The edges' source nodes: row 0 of the edge list. -/
def srcOf (e : IArr S2x320000) : IArr S320000 :=
  shapeCast S320000 (extractStridedSlice S1x320000 ![0, 0] e slices_S2x320000_S1x320000_0_0) shapeCasts_S1x320000_S320000

/-- The edges' target nodes: row 1 of the edge list. -/
def dstOf (e : IArr S2x320000) : IArr S320000 :=
  shapeCast S320000 (extractStridedSlice S1x320000 ![1, 0] e slices_S2x320000_S1x320000_1_0) shapeCasts_S1x320000_S320000

/-- A negative node number counts from the end. -/
def wrap (s : IArr S320000) : IArr S320000 :=
  select (cmpi .slt s (broadcastInDim S320000 ![] bcast_S_S320000 (constantI S_ 32 0#32)))
    (addi s (broadcastInDim S320000 ![] bcast_S_S320000 (constantI S_ 32 20000#32))) s

/-- Node numbers as a one-column index table. -/
def col (s : IArr S320000) : IArr S320000x1 := broadcastInDim S320000x1 ![0] bcast_S320000_S320000x1_0 s

/-- The first convolution's messages summed at their targets. -/
def aggr64 (x : FVec Ideal S20000x64 .f32) (e : IArr S2x320000) (p : FVec Ideal S320000x64 .f32) : FVec Ideal S20000x64 .f32 :=
  Host.scatterAdd scatter_S20000x64_S320000x1_S320000x64_1_0_0_1
    (broadcastInDim S20000x64 ![] bcast_S_S20000x64 (constant (F := Ideal) S_ .f32 0x00000000#32))
    (col (dstOf e))
    (maximumf (addf (Host.gather gather_S20000x64_S320000x1_S320000x64_1_0_n_n_0_1_164 x (col (wrap (srcOf e)))) p)
      (broadcastInDim S320000x64 ![] bcast_S_S320000x64 (constant (F := Ideal) S_ .f32 0x00000000#32)))

/-- The second convolution's messages summed at their targets. -/
def aggr256 (x : FVec Ideal S20000x256 .f32) (e : IArr S2x320000) (p : FVec Ideal S320000x256 .f32) : FVec Ideal S20000x256 .f32 :=
  Host.scatterAdd scatter_S20000x256_S320000x1_S320000x256_1_0_0_1
    (broadcastInDim S20000x256 ![] bcast_S_S20000x256 (constant (F := Ideal) S_ .f32 0x00000000#32))
    (col (dstOf e))
    (maximumf (addf (Host.gather gather_S20000x256_S320000x1_S320000x256_1_0_n_n_0_1_1256 x (col (wrap (srcOf e)))) p)
      (broadcastInDim S320000x256 ![] bcast_S_S320000x256 (constant (F := Ideal) S_ .f32 0x00000000#32)))

/-- The first node update: `relu (relu ((x + g) · W1 + b1) · W2 + b2)`. -/
def node64 (x g : FVec Ideal S20000x64 .f32) (w1 : FVec Ideal S64x256 .f32) (b1 : FVec Ideal S256 .f32)
    (w2 : FVec Ideal S256x256 .f32) (b2 : FVec Ideal S256 .f32) : FVec Ideal S20000x256 .f32 :=
  maximumf (addf (Host.dotGeneral dot_S20000x256_S256x256_S20000x256_1_0_0_1_n_n none
      (maximumf (addf (Host.dotGeneral dot_S20000x64_S64x256_S20000x256_1_0_0_1_n_n none (addf x g) w1)
          (broadcastInDim S20000x256 ![0, 1] bcast_S1x256_S20000x256_0_1 (broadcastInDim S1x256 ![1] bcast_S256_S1x256_1 b1)))
        (broadcastInDim S20000x256 ![] bcast_S_S20000x256 (constant (F := Ideal) S_ .f32 0x00000000#32)))
      w2)
    (broadcastInDim S20000x256 ![0, 1] bcast_S1x256_S20000x256_0_1 (broadcastInDim S1x256 ![1] bcast_S256_S1x256_1 b2)))
    (broadcastInDim S20000x256 ![] bcast_S_S20000x256 (constant (F := Ideal) S_ .f32 0x00000000#32))

/-- The second node update. -/
def node256 (x g : FVec Ideal S20000x256 .f32) (w1 : FVec Ideal S256x256 .f32) (b1 : FVec Ideal S256 .f32)
    (w2 : FVec Ideal S256x256 .f32) (b2 : FVec Ideal S256 .f32) : FVec Ideal S20000x256 .f32 :=
  maximumf (addf (Host.dotGeneral dot_S20000x256_S256x256_S20000x256_1_0_0_1_n_n none
      (maximumf (addf (Host.dotGeneral dot_S20000x256_S256x256_S20000x256_1_0_0_1_n_n none (addf x g) w1)
          (broadcastInDim S20000x256 ![0, 1] bcast_S1x256_S20000x256_0_1 (broadcastInDim S1x256 ![1] bcast_S256_S1x256_1 b1)))
        (broadcastInDim S20000x256 ![] bcast_S_S20000x256 (constant (F := Ideal) S_ .f32 0x00000000#32)))
      w2)
    (broadcastInDim S20000x256 ![0, 1] bcast_S1x256_S20000x256_0_1 (broadcastInDim S1x256 ![1] bcast_S256_S1x256_1 b2)))
    (broadcastInDim S20000x256 ![] bcast_S_S20000x256 (constant (F := Ideal) S_ .f32 0x00000000#32))

/-- The mean of each graph's node rows (a graph with no node divides by one). -/
def pooled (h : FVec Ideal S20000x256 .f32) (batch : IArr S20000) : FVec Ideal S64x256 .f32 :=
  Host.divf
    (Host.scatterAdd scatter_S64x256_S20000x1_S20000x256_1_0_0_1
      (broadcastInDim S64x256 ![] bcast_S_S64x256 (constant (F := Ideal) S_ .f32 0x00000000#32))
      (broadcastInDim S20000x1 ![0] bcast_S20000_S20000x1_0 batch) h)
    (broadcastInDim S64x256 ![0, 1] bcast_S64x1_S64x256_0_1 (broadcastInDim S64x1 ![0] bcast_S64_S64x1_0
      (maximumf
        (Host.scatterAdd scatter_S64_S20000x1_S20000_n_0_0_1
          (broadcastInDim S64 ![] bcast_S_S64 (constant (F := Ideal) S_ .f32 0x00000000#32))
          (broadcastInDim S20000x1 ![0] bcast_S20000_S20000x1_0 batch)
          (broadcastInDim S20000 ![] bcast_S_S20000 (constant (F := Ideal) S_ .f32 0x3F800000#32)))
        (broadcastInDim S64 ![] bcast_S_S64 (constant (F := Ideal) S_ .f32 0x3F800000#32)))))

/-- The readout trunk: two dense layers with rectifiers. -/
def trunk (g : FVec Ideal S64x256 .f32) (w1 : FVec Ideal S256x128 .f32) (b1 : FVec Ideal S128 .f32)
    (w2 : FVec Ideal S128x64 .f32) (b2 : FVec Ideal S64 .f32) : FVec Ideal S64x64 .f32 :=
  maximumf (addf (Host.dotGeneral dot_S64x128_S128x64_S64x64_1_0_0_1_n_n none
      (maximumf (addf (Host.dotGeneral dot_S64x256_S256x128_S64x128_1_0_0_1_n_n none g w1)
          (broadcastInDim S64x128 ![0, 1] bcast_S1x128_S64x128_0_1 (broadcastInDim S1x128 ![1] bcast_S128_S1x128_1 b1)))
        (broadcastInDim S64x128 ![] bcast_S_S64x128 (constant (F := Ideal) S_ .f32 0x00000000#32)))
      w2)
    (broadcastInDim S64x64 ![0, 1] bcast_S1x64_S64x64_0_1 (broadcastInDim S1x64 ![1] bcast_S64_S1x64_1 b2)))
    (broadcastInDim S64x64 ![] bcast_S_S64x64 (constant (F := Ideal) S_ .f32 0x00000000#32))

/-- One linear head: a number per graph. -/
def headOut (tk : FVec Ideal S64x64 .f32) (w : FVec Ideal S64x1 .f32) (b : FVec Ideal S1 .f32) : FVec Ideal S64 .f32 :=
  shapeCast S64 (addf (Host.dotGeneral dot_S64x64_S64x1_S64x1_1_0_0_1_n_n none tk w)
    (broadcastInDim S64x1 ![0, 1] bcast_S1x1_S64x1_0_1 (broadcastInDim S1x1 ![1] bcast_S1_S1x1_1 b))) shapeCasts_S64x1_S64

/-- The edge rows after the perceptron. -/
def Args.ea (A : Args) : FVec Ideal S320000x256 .f32 := edgeMlp A.attr A.ew1 A.eb1 A.ew2 A.eb2
/-- The node rows after the first convolution. -/
def Args.h1 (A : Args) : FVec Ideal S20000x256 .f32 :=
  node64 A.x (aggr64 A.x A.edges (proj64 A.ea A.p1w A.p1b)) A.n1w1 A.n1b1 A.n1w2 A.n1b2
/-- The node rows after the second convolution. -/
def Args.h2 (A : Args) : FVec Ideal S20000x256 .f32 :=
  node256 A.h1 (aggr256 A.h1 A.edges (proj256 A.ea A.p2w A.p2b)) A.n2w1 A.n2b1 A.n2w2 A.n2b2
/-- The trunk's output, one row per graph. -/
def Args.tk (A : Args) : FVec Ideal S64x64 .f32 := trunk (pooled A.h2 A.batch) A.l1w A.l1b A.l2w A.l2b
/-- The three results. -/
def Args.out0 (A : Args) : FVec Ideal S64 .f32 := headOut A.tk A.hsw A.hsb
def Args.out1 (A : Args) : FVec Ideal S64 .f32 := headOut A.tk A.hpw A.hpb
def Args.out2 (A : Args) : FVec Ideal S64 .f32 := headOut A.tk A.hnw A.hnb

end Cert.Net

end
-- ==== Proof.HostRows.lean ====
/-
  The host's dense stacks at an entry: each whole-matrix stack of the network (`Net`), read at row a and column q, is
  the corresponding perceptron (`Rows`) of row a of its input. A bias vector placed as a one-row matrix and stretched
  down the rows reads the vector's entry in the column.
-/
import proofs.«130825_j472446402724_2_alg».proof.Proof.Net
import proofs.«130825_j472446402724_2_alg».proof.Proof.Rows

noncomputable section

namespace Cert.HostRows

open Idealize.ShloMosaic Idealize.ShloMosaic.ValueIdx Cert.LibRowLayers Cert.ReferenceIdeal Cert.ReferenceIdeal.Facts₀

theorem eA_l : ∀ j k, (dot_S320000x16_S16x256_S320000x256_1_0_0_1_n_n.lhsIdx j k 0).val = (j 0).val := by
  dot_lhs0 dot_S320000x16_S16x256_S320000x256_1_0_0_1_n_n
theorem eA_r : ∀ j k, (dot_S320000x16_S16x256_S320000x256_1_0_0_1_n_n.rhsIdx j k 1).val = (j 1).val := by
  dot_rhs1 dot_S320000x16_S16x256_S320000x256_1_0_0_1_n_n
theorem eB_l : ∀ j k, (dot_S320000x256_S256x256_S320000x256_1_0_0_1_n_n.lhsIdx j k 0).val = (j 0).val := by
  dot_lhs0 dot_S320000x256_S256x256_S320000x256_1_0_0_1_n_n
theorem eB_r : ∀ j k, (dot_S320000x256_S256x256_S320000x256_1_0_0_1_n_n.rhsIdx j k 1).val = (j 1).val := by
  dot_rhs1 dot_S320000x256_S256x256_S320000x256_1_0_0_1_n_n
theorem eC_l : ∀ j k, (dot_S320000x256_S256x64_S320000x64_1_0_0_1_n_n.lhsIdx j k 0).val = (j 0).val := by
  dot_lhs0 dot_S320000x256_S256x64_S320000x64_1_0_0_1_n_n
theorem eC_r : ∀ j k, (dot_S320000x256_S256x64_S320000x64_1_0_0_1_n_n.rhsIdx j k 1).val = (j 1).val := by
  dot_rhs1 dot_S320000x256_S256x64_S320000x64_1_0_0_1_n_n
theorem nA_l : ∀ j k, (dot_S20000x64_S64x256_S20000x256_1_0_0_1_n_n.lhsIdx j k 0).val = (j 0).val := by
  dot_lhs0 dot_S20000x64_S64x256_S20000x256_1_0_0_1_n_n
theorem nA_r : ∀ j k, (dot_S20000x64_S64x256_S20000x256_1_0_0_1_n_n.rhsIdx j k 1).val = (j 1).val := by
  dot_rhs1 dot_S20000x64_S64x256_S20000x256_1_0_0_1_n_n
theorem nB_l : ∀ j k, (dot_S20000x256_S256x256_S20000x256_1_0_0_1_n_n.lhsIdx j k 0).val = (j 0).val := by
  dot_lhs0 dot_S20000x256_S256x256_S20000x256_1_0_0_1_n_n
theorem nB_r : ∀ j k, (dot_S20000x256_S256x256_S20000x256_1_0_0_1_n_n.rhsIdx j k 1).val = (j 1).val := by
  dot_rhs1 dot_S20000x256_S256x256_S20000x256_1_0_0_1_n_n

/-- The edge perceptron's row a. -/
theorem edgeMlp_apply (X : FVec Ideal S320000x16 .f32) (w1 : FVec Ideal S16x256 .f32) (b1 : FVec Ideal S256 .f32)
    (w2 : FVec Ideal S256x256 .f32) (b2 : FVec Ideal S256 .f32) (a : Fin 320000) (q : Fin 256) :
    Net.edgeMlp X w1 b1 w2 b2 (ix2 a q)
      = Rows.hidden (fun k => X (ix2 a k)) w1 (fun j => b1 (ix1 j)) w2 (fun j => b2 (ix1 j)) q := by
  unfold Net.edgeMlp
  refine (host_dense dot_S320000x256_S256x256_S320000x256_1_0_0_1_n_n rfl rfl rfl rfl eB_l eB_r none _ _ _ _ a q).trans ?_
  unfold Rows.hidden
  refine dense_congr _ q (fun k => ?_) (LibCastForms.bcast_row b2 _ 0 q)
  rw [host_relu]
  refine congrArg (max · 0) ?_
  exact (host_dense dot_S320000x16_S16x256_S320000x256_1_0_0_1_n_n rfl rfl rfl rfl eA_l eA_r none _ _ _ _ a k).trans
    (dense_congr _ k (fun _ => rfl) (LibCastForms.bcast_row b1 _ 0 k))

/-- The projection to width 64 of the edge perceptron, at row a. -/
theorem proj64_apply (X : FVec Ideal S320000x16 .f32) (w1 : FVec Ideal S16x256 .f32) (b1 : FVec Ideal S256 .f32)
    (w2 : FVec Ideal S256x256 .f32) (b2 : FVec Ideal S256 .f32) (w3 : FVec Ideal S256x64 .f32) (b3 : FVec Ideal S64 .f32)
    (a : Fin 320000) (q : Fin 64) :
    Net.proj64 (Net.edgeMlp X w1 b1 w2 b2) w3 b3 (ix2 a q)
      = Rows.edgeRow (fun k => X (ix2 a k)) w1 (fun j => b1 (ix1 j)) w2 (fun j => b2 (ix1 j)) w3 (fun j => b3 (ix1 j)) q := by
  unfold Net.proj64
  refine (host_dense dot_S320000x256_S256x64_S320000x64_1_0_0_1_n_n rfl rfl rfl rfl eC_l eC_r none _ _ _ _ a q).trans ?_
  unfold Rows.edgeRow
  exact dense_congr _ q (fun k => edgeMlp_apply X w1 b1 w2 b2 a k) (LibCastForms.bcast_row b3 _ 0 q)

/-- The projection to width 256 of the edge perceptron, at row a. -/
theorem proj256_apply (X : FVec Ideal S320000x16 .f32) (w1 : FVec Ideal S16x256 .f32) (b1 : FVec Ideal S256 .f32)
    (w2 : FVec Ideal S256x256 .f32) (b2 : FVec Ideal S256 .f32) (w3 : FVec Ideal S256x256 .f32) (b3 : FVec Ideal S256 .f32)
    (a : Fin 320000) (q : Fin 256) :
    Net.proj256 (Net.edgeMlp X w1 b1 w2 b2) w3 b3 (ix2 a q)
      = Rows.edgeRow (fun k => X (ix2 a k)) w1 (fun j => b1 (ix1 j)) w2 (fun j => b2 (ix1 j)) w3 (fun j => b3 (ix1 j)) q := by
  unfold Net.proj256
  refine (host_dense dot_S320000x256_S256x256_S320000x256_1_0_0_1_n_n rfl rfl rfl rfl eB_l eB_r none _ _ _ _ a q).trans ?_
  unfold Rows.edgeRow
  exact dense_congr _ q (fun k => edgeMlp_apply X w1 b1 w2 b2 a k) (LibCastForms.bcast_row b3 _ 0 q)

/-- The first node update at row a. -/
theorem node64_apply (x g : FVec Ideal S20000x64 .f32) (w1 : FVec Ideal S64x256 .f32) (b1 : FVec Ideal S256 .f32)
    (w2 : FVec Ideal S256x256 .f32) (b2 : FVec Ideal S256 .f32) (a : Fin 20000) (q : Fin 256) :
    Net.node64 x g w1 b1 w2 b2 (ix2 a q)
      = Rows.nodeRow (fun k => x (ix2 a k) + g (ix2 a k)) w1 (fun j => b1 (ix1 j)) w2 (fun j => b2 (ix1 j)) q := by
  unfold Net.node64
  rw [host_relu]
  unfold Rows.nodeRow
  refine congrArg (max · 0) ?_
  refine (host_dense dot_S20000x256_S256x256_S20000x256_1_0_0_1_n_n rfl rfl rfl rfl nB_l nB_r none _ _ _ _ a q).trans ?_
  refine dense_congr _ q (fun k => ?_) (LibCastForms.bcast_row b2 _ 0 q)
  rw [host_relu]
  refine congrArg (max · 0) ?_
  exact (host_dense dot_S20000x64_S64x256_S20000x256_1_0_0_1_n_n rfl rfl rfl rfl nA_l nA_r none _ _ _ _ a k).trans
    (dense_congr _ k (fun _ => rfl) (LibCastForms.bcast_row b1 _ 0 k))

/-- The second node update at row a. -/
theorem node256_apply (x g : FVec Ideal S20000x256 .f32) (w1 : FVec Ideal S256x256 .f32) (b1 : FVec Ideal S256 .f32)
    (w2 : FVec Ideal S256x256 .f32) (b2 : FVec Ideal S256 .f32) (a : Fin 20000) (q : Fin 256) :
    Net.node256 x g w1 b1 w2 b2 (ix2 a q)
      = Rows.nodeRow (fun k => x (ix2 a k) + g (ix2 a k)) w1 (fun j => b1 (ix1 j)) w2 (fun j => b2 (ix1 j)) q := by
  unfold Net.node256
  rw [host_relu]
  unfold Rows.nodeRow
  refine congrArg (max · 0) ?_
  refine (host_dense dot_S20000x256_S256x256_S20000x256_1_0_0_1_n_n rfl rfl rfl rfl nB_l nB_r none _ _ _ _ a q).trans ?_
  refine dense_congr _ q (fun k => ?_) (LibCastForms.bcast_row b2 _ 0 q)
  rw [host_relu]
  refine congrArg (max · 0) ?_
  exact (host_dense dot_S20000x256_S256x256_S20000x256_1_0_0_1_n_n rfl rfl rfl rfl nB_l nB_r none _ _ _ _ a k).trans
    (dense_congr _ k (fun _ => rfl) (LibCastForms.bcast_row b1 _ 0 k))

end Cert.HostRows

end
-- ==== Proof.RegionNet.lean ====
/-
  The kernels' result arrays are the network's dense stacks: row a of a kernel's result and row a of the host's
  whole-matrix stack are the same perceptron of the same input row (`Tiles` on the kernel's side, `HostRows` on the
  host's). The kernels find their bias vectors already recast as one-row matrices; entry (0, j) of such a row is entry
  j of the vector.
-/
import proofs.«130825_j472446402724_2_alg».proof.Proof.Region0
import proofs.«130825_j472446402724_2_alg».proof.Proof.Region1
import proofs.«130825_j472446402724_2_alg».proof.Proof.Region2
import proofs.«130825_j472446402724_2_alg».proof.Proof.HostRows

noncomputable section

namespace Cert.KernelIdeal.RegionNet

open Idealize.ShloMosaic Idealize.ShloMosaic.TcCoe Idealize.ShloMosaic.ValueIdx Idealize.SL.Sem
open Cert.KernelIdeal

variable (V : (c : Dev nD) → (b : Ref sig .tc) → Buf (Elt Ideal) ((c : Thread nD τ).loc b))

/-- The edge kernel's first result is the width-64 projection of the edge perceptron. -/
theorem G9_eq (c : Dev nD) (X : FVec Ideal S320000x16 .f32) (w1 : FVec Ideal S16x256 .f32) (b1 : FVec Ideal S256 .f32)
    (w2 : FVec Ideal S256x256 .f32) (b2 : FVec Ideal S256 .f32) (w3 : FVec Ideal S256x64 .f32) (b3 : FVec Ideal S64 .f32)
    (hX : V c main_arg3 = X) (hw1 : V c main_arg4 = w1) (hb1 : ∀ j : Fin 256, V c main_v4 (ix2 (0 : Fin 1) j) = b1 (ix1 j))
    (hw2 : V c main_arg6 = w2) (hb2 : ∀ j : Fin 256, V c main_v5 (ix2 (0 : Fin 1) j) = b2 (ix1 j))
    (hw3 : V c main_arg8 = w3) (hb3 : ∀ j : Fin 64, V c main_v6 (ix2 (0 : Fin 1) j) = b3 (ix1 j)) :
    Region0.G9 V c = Net.proj64 (Net.edgeMlp X w1 b1 w2 b2) w3 b3 := by
  funext i
  obtain ⟨a, q, rfl⟩ : ∃ (a : Fin 320000) (q : Fin 64), i = ix2 a q := ⟨i 0, i 1, eq_ix2 i⟩
  unfold Region0.G9
  rw [hX, hw1, hw2, hw3, HostRows.proj64_apply]
  exact Rows.edgeRow_congr _ _ _ (fun _ => rfl) hb1 hb2 hb3 q

/-- The edge kernel's second result is the width-256 projection of the edge perceptron. -/
theorem G10_eq (c : Dev nD) (X : FVec Ideal S320000x16 .f32) (w1 : FVec Ideal S16x256 .f32) (b1 : FVec Ideal S256 .f32)
    (w2 : FVec Ideal S256x256 .f32) (b2 : FVec Ideal S256 .f32) (w3 : FVec Ideal S256x256 .f32) (b3 : FVec Ideal S256 .f32)
    (hX : V c main_arg3 = X) (hw1 : V c main_arg4 = w1) (hb1 : ∀ j : Fin 256, V c main_v4 (ix2 (0 : Fin 1) j) = b1 (ix1 j))
    (hw2 : V c main_arg6 = w2) (hb2 : ∀ j : Fin 256, V c main_v5 (ix2 (0 : Fin 1) j) = b2 (ix1 j))
    (hw3 : V c main_arg10 = w3) (hb3 : ∀ j : Fin 256, V c main_v7 (ix2 (0 : Fin 1) j) = b3 (ix1 j)) :
    Region0.G10 V c = Net.proj256 (Net.edgeMlp X w1 b1 w2 b2) w3 b3 := by
  funext i
  obtain ⟨a, q, rfl⟩ : ∃ (a : Fin 320000) (q : Fin 256), i = ix2 a q := ⟨i 0, i 1, eq_ix2 i⟩
  unfold Region0.G10
  rw [hX, hw1, hw2, hw3, HostRows.proj256_apply]
  exact Rows.edgeRow_congr _ _ _ (fun _ => rfl) hb1 hb2 hb3 q

/-- The first node kernel's result is the first node update. -/
theorem G6a_eq (c : Dev nD) (x g : FVec Ideal S20000x64 .f32) (w1 : FVec Ideal S64x256 .f32) (b1 : FVec Ideal S256 .f32)
    (w2 : FVec Ideal S256x256 .f32) (b2 : FVec Ideal S256 .f32)
    (hx : V c main_arg0 = x) (hg : V c main_v20 = g) (hw1 : V c main_arg12 = w1)
    (hb1 : ∀ j : Fin 256, V c main_v21 (ix2 (0 : Fin 1) j) = b1 (ix1 j))
    (hw2 : V c main_arg14 = w2) (hb2 : ∀ j : Fin 256, V c main_v22 (ix2 (0 : Fin 1) j) = b2 (ix1 j)) :
    Region1.G6 V c = Net.node64 x g w1 b1 w2 b2 := by
  funext i
  obtain ⟨a, q, rfl⟩ : ∃ (a : Fin 20000) (q : Fin 256), i = ix2 a q := ⟨i 0, i 1, eq_ix2 i⟩
  unfold Region1.G6 Region1.rowsOf
  rw [hx, hg, hw1, hw2, HostRows.node64_apply]
  exact Rows.nodeRow_congr _ _ (fun _ => rfl) hb1 hb2 q

/-- The second node kernel's result is the second node update. -/
theorem G6b_eq (c : Dev nD) (x g : FVec Ideal S20000x256 .f32) (w1 : FVec Ideal S256x256 .f32) (b1 : FVec Ideal S256 .f32)
    (w2 : FVec Ideal S256x256 .f32) (b2 : FVec Ideal S256 .f32)
    (hx : V c main_v23 = x) (hg : V c main_v35 = g) (hw1 : V c main_arg16 = w1)
    (hb1 : ∀ j : Fin 256, V c main_v36 (ix2 (0 : Fin 1) j) = b1 (ix1 j))
    (hw2 : V c main_arg18 = w2) (hb2 : ∀ j : Fin 256, V c main_v37 (ix2 (0 : Fin 1) j) = b2 (ix1 j)) :
    Region2.G6 V c = Net.node256 x g w1 b1 w2 b2 := by
  funext i
  obtain ⟨a, q, rfl⟩ : ∃ (a : Fin 20000) (q : Fin 256), i = ix2 a q := ⟨i 0, i 1, eq_ix2 i⟩
  unfold Region2.G6 Region2.rowsOf
  rw [hx, hg, hw1, hw2, HostRows.node256_apply]
  exact Rows.nodeRow_congr _ _ (fun _ => rfl) hb1 hb2 q

end Cert.KernelIdeal.RegionNet

end
-- ==== Proof.LibKeeps.lean ====
/-
  A straight line of host operations leaves every buffer it does not write as it was. Which buffers a line writes is
  read off the line itself: each operation writes exactly its result reference. The tactic below proves, for a literal
  line `ops` and a literal list `W` of references, that every operation's written set lies inside `W`; the library's
  `StableHlo.after_of_writes_sub` then gives `after ops V b = V b` for any reference `b` outside `W`
  (membership in `W` is decided over references).
-/
import Idealize.ShloMosaic.Lib.StableHlo.Run

open Idealize.ShloMosaic

/-- Closes `ops.Forall fun op => op.writes ⊆ (W.map (Proc.devRef .tc)).toFinset` for a literal line `ops` (named by the
    identifier given, so that it can be unfolded) of the library's operation builders and a literal list `W` holding
    every result reference of the line: the conjunction is split, each builder's written set is the singleton of its
    result reference, and that reference is found in `W` by `decide`. -/
macro "host_writes" ops:ident : tactic =>
  `(tactic| (simp only [$ops:ident, List.Forall]
             repeat' apply And.intro
             all_goals
               (simp only [StableHlo.nullary_writes, StableHlo.unary_writes, StableHlo.binary_writes, StableHlo.ternary_writes,
                  StableHlo.quaternary_writes, StableHlo.reshape_writes, StableHlo.binaryIndexed_writes,
                  StableHlo.unaryIndexed_writes, StableHlo.nary_writes, Finset.singleton_subset_iff, List.mem_toFinset]
                exact List.mem_map_of_mem (by decide))))
-- ==== Proof.Chain.lean ====
/-
  The kernel program's buffers between its three kernels, as terms of the network.

  The program alternates host operations and kernels. Following it from the launch: the index rows of the edge list and
  the bias vectors recast as rows; the edge kernel's two results (the projections of the edge perceptron); the first
  convolution's messages summed at their targets; the first node kernel's result; the second convolution's sums; the
  second node kernel's result. A buffer that a stretch of host operations does not write, and that is not one of a
  kernel's arrays, is carried across unchanged; each kernel's result array is the network's dense stack of its input
  arrays (`RegionNet`).
-/
import proofs.«130825_j472446402724_2_alg».proof.Proof.Gen.KernelIdeal.Frame
import proofs.«130825_j472446402724_2_alg».proof.Proof.Region0a
import proofs.«130825_j472446402724_2_alg».proof.Proof.Region0b
import proofs.«130825_j472446402724_2_alg».proof.Proof.RegionNet
import proofs.«130825_j472446402724_2_alg».proof.Proof.LibKeeps

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀

variable (m : (ℓ : Loc nD τ sig) → Buf (Elt Ideal) ℓ) (ρ : Dev nD → PrngReg)

/-- The kernel program's argument arrays on a device, as the network's arguments. -/
def args (c : Dev nD) : Net.Args where
  x := m ((c : Thread nD τ).loc main_arg0)
  edges := m ((c : Thread nD τ).loc main_arg1)
  batch := m ((c : Thread nD τ).loc main_arg2)
  attr := m ((c : Thread nD τ).loc main_arg3)
  ew1 := m ((c : Thread nD τ).loc main_arg4)
  eb1 := m ((c : Thread nD τ).loc main_arg5)
  ew2 := m ((c : Thread nD τ).loc main_arg6)
  eb2 := m ((c : Thread nD τ).loc main_arg7)
  p1w := m ((c : Thread nD τ).loc main_arg8)
  p1b := m ((c : Thread nD τ).loc main_arg9)
  p2w := m ((c : Thread nD τ).loc main_arg10)
  p2b := m ((c : Thread nD τ).loc main_arg11)
  n1w1 := m ((c : Thread nD τ).loc main_arg12)
  n1b1 := m ((c : Thread nD τ).loc main_arg13)
  n1w2 := m ((c : Thread nD τ).loc main_arg14)
  n1b2 := m ((c : Thread nD τ).loc main_arg15)
  n2w1 := m ((c : Thread nD τ).loc main_arg16)
  n2b1 := m ((c : Thread nD τ).loc main_arg17)
  n2w2 := m ((c : Thread nD τ).loc main_arg18)
  n2b2 := m ((c : Thread nD τ).loc main_arg19)
  l1w := m ((c : Thread nD τ).loc main_arg20)
  l1b := m ((c : Thread nD τ).loc main_arg21)
  l2w := m ((c : Thread nD τ).loc main_arg22)
  l2b := m ((c : Thread nD τ).loc main_arg23)
  hsw := m ((c : Thread nD τ).loc main_arg24)
  hsb := m ((c : Thread nD τ).loc main_arg25)
  hpw := m ((c : Thread nD τ).loc main_arg26)
  hpb := m ((c : Thread nD τ).loc main_arg27)
  hnw := m ((c : Thread nD τ).loc main_arg28)
  hnb := m ((c : Thread nD τ).loc main_arg29)

/-! ## What each stretch of host operations writes -/

def L0 : List (Ref sig .tc) := [main_v0, main_v1, main_v2, main_v3, main_v4, main_v5, main_v6, main_v7]
theorem writes0 : (hostOps0 : List (HloOp τ sig (Elt Ideal))).Forall fun op => op.writes ⊆ (L0.map (Proc.devRef (τ := τ) .tc)).toFinset := by
  host_writes hostOps0
/-- A buffer the stretch does not write is carried across it. -/
theorem K1 (c : Dev nD) (r : Ref sig .tc) (hr : r ∉ L0) :
    W1 m ρ c (Proc.devRef .tc r) = W0 m ρ c (Proc.devRef .tc r) :=
  after_of_writes_sub _ _ writes0 hr

def L1 : List (Ref sig .tc) := [main_c, main_v9, main_v10, main_c_0, main_v11, main_v12, main_v13, main_v14, main_v15, main_v16]
theorem writes1 : (hostOps1 : List (HloOp τ sig (Elt Ideal))).Forall fun op => op.writes ⊆ (L1.map (Proc.devRef (τ := τ) .tc)).toFinset := by
  host_writes hostOps1
/-- A buffer the stretch does not write is carried across it. -/
theorem K3 (c : Dev nD) (r : Ref sig .tc) (hr : r ∉ L1) :
    W3 m ρ c (Proc.devRef .tc r) = W2 m ρ c (Proc.devRef .tc r) :=
  after_of_writes_sub _ _ writes1 hr

def L1_1 : List (Ref sig .tc) := [main_call0_cst, main_call0_v0, main_v17]
theorem writes1_1 : (hostOps1_1 : List (HloOp τ sig (Elt Ideal))).Forall fun op => op.writes ⊆ (L1_1.map (Proc.devRef (τ := τ) .tc)).toFinset := by
  host_writes hostOps1_1
/-- A buffer the stretch does not write is carried across it. -/
theorem K4 (c : Dev nD) (r : Ref sig .tc) (hr : r ∉ L1_1) :
    W4 m ρ c (Proc.devRef .tc r) = W3 m ρ c (Proc.devRef .tc r) :=
  after_of_writes_sub _ _ writes1_1 hr

def L1_2 : List (Ref sig .tc) := [main_cst, main_v18, main_v19, main_v20, main_v21, main_v22]
theorem writes1_2 : (hostOps1_2 : List (HloOp τ sig (Elt Ideal))).Forall fun op => op.writes ⊆ (L1_2.map (Proc.devRef (τ := τ) .tc)).toFinset := by
  host_writes hostOps1_2
/-- A buffer the stretch does not write is carried across it. -/
theorem K5 (c : Dev nD) (r : Ref sig .tc) (hr : r ∉ L1_2) :
    W5 m ρ c (Proc.devRef .tc r) = W4 m ρ c (Proc.devRef .tc r) :=
  after_of_writes_sub _ _ writes1_2 hr

def L2 : List (Ref sig .tc) := [main_c_1, main_v24, main_v25, main_c_2, main_v26, main_v27, main_v28, main_v29, main_v30, main_v31]
theorem writes2 : (hostOps2 : List (HloOp τ sig (Elt Ideal))).Forall fun op => op.writes ⊆ (L2.map (Proc.devRef (τ := τ) .tc)).toFinset := by
  host_writes hostOps2
/-- A buffer the stretch does not write is carried across it. -/
theorem K7 (c : Dev nD) (r : Ref sig .tc) (hr : r ∉ L2) :
    W7 m ρ c (Proc.devRef .tc r) = W6 m ρ c (Proc.devRef .tc r) :=
  after_of_writes_sub _ _ writes2 hr

def L2_1 : List (Ref sig .tc) := [main_call1_cst, main_call1_v0, main_v32]
theorem writes2_1 : (hostOps2_1 : List (HloOp τ sig (Elt Ideal))).Forall fun op => op.writes ⊆ (L2_1.map (Proc.devRef (τ := τ) .tc)).toFinset := by
  host_writes hostOps2_1
/-- A buffer the stretch does not write is carried across it. -/
theorem K8 (c : Dev nD) (r : Ref sig .tc) (hr : r ∉ L2_1) :
    W8 m ρ c (Proc.devRef .tc r) = W7 m ρ c (Proc.devRef .tc r) :=
  after_of_writes_sub _ _ writes2_1 hr

def L2_2 : List (Ref sig .tc) := [main_cst_3, main_v33, main_v34, main_v35, main_v36, main_v37]
theorem writes2_2 : (hostOps2_2 : List (HloOp τ sig (Elt Ideal))).Forall fun op => op.writes ⊆ (L2_2.map (Proc.devRef (τ := τ) .tc)).toFinset := by
  host_writes hostOps2_2
/-- A buffer the stretch does not write is carried across it. -/
theorem K9 (c : Dev nD) (r : Ref sig .tc) (hr : r ∉ L2_2) :
    W9 m ρ c (Proc.devRef .tc r) = W8 m ρ c (Proc.devRef .tc r) :=
  after_of_writes_sub _ _ writes2_2 hr

/-! ## The argument arrays along the way -/

/-- All thirty arguments. -/
def A0 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]
/-- The arguments that are not arrays of the edge kernel. -/
def A1 : List (Ref sig .tc) := [main_arg0, main_arg2, main_arg12, main_arg13, main_arg14, main_arg15, main_arg16, main_arg17, main_arg18, main_arg19, main_arg20, main_arg21, main_arg22, main_arg23, main_arg24, main_arg25, main_arg26, main_arg27, main_arg28, main_arg29]
/-- Those that are not arrays of the first node kernel either. -/
def A2 : List (Ref sig .tc) := [main_arg2, main_arg16, main_arg17, main_arg18, main_arg19, main_arg20, main_arg21, main_arg22, main_arg23, main_arg24, main_arg25, main_arg26, main_arg27, main_arg28, main_arg29]
/-- Those that are not arrays of the second node kernel either. -/
def A3 : List (Ref sig .tc) := [main_arg2, main_arg20, main_arg21, main_arg22, main_arg23, main_arg24, main_arg25, main_arg26, main_arg27, main_arg28, main_arg29]

theorem A1_sub : ∀ r ∈ A1, r ∈ A0 := by decide
theorem A2_sub : ∀ r ∈ A2, r ∈ A1 := by decide
theorem A3_sub : ∀ r ∈ A3, r ∈ A2 := by decide
theorem A0_L0 : ∀ r ∈ A0, r ∉ L0 := by decide
theorem A1_R0 : ∀ r ∈ A1, ∀ w, Pipeline.arrRef spec0 w ≠ r := by decide
theorem A1_L1 : ∀ r ∈ A1, r ∉ L1 := by decide
theorem A1_L1_1 : ∀ r ∈ A1, r ∉ L1_1 := by decide
theorem A1_L1_2 : ∀ r ∈ A1, r ∉ L1_2 := by decide
theorem A2_R1 : ∀ r ∈ A2, ∀ w, Pipeline.arrRef spec1 w ≠ r := by decide
theorem A2_L2 : ∀ r ∈ A2, r ∉ L2 := by decide
theorem A2_L2_1 : ∀ r ∈ A2, r ∉ L2_1 := by decide
theorem A2_L2_2 : ∀ r ∈ A2, r ∉ L2_2 := by decide
theorem A3_R2 : ∀ r ∈ A3, ∀ w, Pipeline.arrRef spec2 w ≠ r := by decide

theorem at1 (c : Dev nD) (r : Ref sig .tc) (hr : r ∈ A0) : W1 m ρ c (Proc.devRef .tc r) = m ((c : Thread nD τ).loc r) :=
  K1 m ρ c r (A0_L0 r hr)
theorem at2 (c : Dev nD) (r : Ref sig .tc) (hr : r ∈ A1) : W2 m ρ c (Proc.devRef .tc r) = m ((c : Thread nD τ).loc r) :=
  (W2_of_ne m ρ c r (A1_R0 r hr)).trans (at1 m ρ c r (A1_sub r hr))
theorem at3 (c : Dev nD) (r : Ref sig .tc) (hr : r ∈ A1) : W3 m ρ c (Proc.devRef .tc r) = m ((c : Thread nD τ).loc r) :=
  (K3 m ρ c r (A1_L1 r hr)).trans (at2 m ρ c r hr)
theorem at4 (c : Dev nD) (r : Ref sig .tc) (hr : r ∈ A1) : W4 m ρ c (Proc.devRef .tc r) = m ((c : Thread nD τ).loc r) :=
  (K4 m ρ c r (A1_L1_1 r hr)).trans (at3 m ρ c r hr)
theorem at5 (c : Dev nD) (r : Ref sig .tc) (hr : r ∈ A1) : W5 m ρ c (Proc.devRef .tc r) = m ((c : Thread nD τ).loc r) :=
  (K5 m ρ c r (A1_L1_2 r hr)).trans (at4 m ρ c r hr)
theorem at6 (c : Dev nD) (r : Ref sig .tc) (hr : r ∈ A2) : W6 m ρ c (Proc.devRef .tc r) = m ((c : Thread nD τ).loc r) :=
  (W6_of_ne m ρ c r (A2_R1 r hr)).trans (at5 m ρ c r (A2_sub r hr))
theorem at7 (c : Dev nD) (r : Ref sig .tc) (hr : r ∈ A2) : W7 m ρ c (Proc.devRef .tc r) = m ((c : Thread nD τ).loc r) :=
  (K7 m ρ c r (A2_L2 r hr)).trans (at6 m ρ c r hr)
theorem at8 (c : Dev nD) (r : Ref sig .tc) (hr : r ∈ A2) : W8 m ρ c (Proc.devRef .tc r) = m ((c : Thread nD τ).loc r) :=
  (K8 m ρ c r (A2_L2_1 r hr)).trans (at7 m ρ c r hr)
theorem at9 (c : Dev nD) (r : Ref sig .tc) (hr : r ∈ A2) : W9 m ρ c (Proc.devRef .tc r) = m ((c : Thread nD τ).loc r) :=
  (K9 m ρ c r (A2_L2_2 r hr)).trans (at8 m ρ c r hr)
theorem at10 (c : Dev nD) (r : Ref sig .tc) (hr : r ∈ A3) : W10 m ρ c (Proc.devRef .tc r) = m ((c : Thread nD τ).loc r) :=
  (W10_of_ne m ρ c r (A3_R2 r hr)).trans (at9 m ρ c r (A3_sub r hr))

/-! ## The launch stretch: index rows and bias rows -/

theorem src1 (c : Dev nD) : W1 m ρ c (Proc.devRef .tc main_v1) = Net.srcOf (args m c).edges := by
  show StableHlo.after hostOps0 (W0 m ρ c) (Proc.devRef .tc main_v1) = _
  after_results
  rfl
theorem dst1 (c : Dev nD) : W1 m ρ c (Proc.devRef .tc main_v3) = Net.dstOf (args m c).edges := by
  show StableHlo.after hostOps0 (W0 m ρ c) (Proc.devRef .tc main_v3) = _
  after_results
  rfl
/-- A bias vector recast as a row reads, at (0, j), the vector's entry j. -/
theorem row4 (c : Dev nD) (j : Fin 256) : V1 m ρ c main_v4 (ix2 (0 : Fin 1) j) = (args m c).eb1 (ix1 j) := by
  show StableHlo.after hostOps0 (W0 m ρ c) (Proc.devRef .tc main_v4) (ix2 (0 : Fin 1) j) = _
  after_results
  exact shapeCast_a_1a_apply _ _ 0 j
theorem row5 (c : Dev nD) (j : Fin 256) : V1 m ρ c main_v5 (ix2 (0 : Fin 1) j) = (args m c).eb2 (ix1 j) := by
  show StableHlo.after hostOps0 (W0 m ρ c) (Proc.devRef .tc main_v5) (ix2 (0 : Fin 1) j) = _
  after_results
  exact shapeCast_a_1a_apply _ _ 0 j
theorem row6 (c : Dev nD) (j : Fin 64) : V1 m ρ c main_v6 (ix2 (0 : Fin 1) j) = (args m c).p1b (ix1 j) := by
  show StableHlo.after hostOps0 (W0 m ρ c) (Proc.devRef .tc main_v6) (ix2 (0 : Fin 1) j) = _
  after_results
  exact shapeCast_a_1a_apply _ _ 0 j
theorem row7 (c : Dev nD) (j : Fin 256) : V1 m ρ c main_v7 (ix2 (0 : Fin 1) j) = (args m c).p2b (ix1 j) := by
  show StableHlo.after hostOps0 (W0 m ρ c) (Proc.devRef .tc main_v7) (ix2 (0 : Fin 1) j) = _
  after_results
  exact shapeCast_a_1a_apply _ _ 0 j

/-! ## The edge kernel -/

theorem le1 (c : Dev nD) : W2 m ρ c (Proc.devRef .tc main_v8_0) = Net.proj64 (args m c).ea (args m c).p1w (args m c).p1b :=
  (W2_arr m ρ c 9).trans ((Region0.final9 (V1 m ρ) c).trans
    (RegionNet.G9_eq (V1 m ρ) c _ _ _ _ _ _ _ (at1 m ρ c main_arg3 (by decide)) (at1 m ρ c main_arg4 (by decide)) (row4 m ρ c)
      (at1 m ρ c main_arg6 (by decide)) (row5 m ρ c) (at1 m ρ c main_arg8 (by decide)) (row6 m ρ c)))
theorem le2 (c : Dev nD) : W2 m ρ c (Proc.devRef .tc main_v8_1) = Net.proj256 (args m c).ea (args m c).p2w (args m c).p2b :=
  (W2_arr m ρ c 10).trans ((Region0.final10 (V1 m ρ) c).trans
    (RegionNet.G10_eq (V1 m ρ) c _ _ _ _ _ _ _ (at1 m ρ c main_arg3 (by decide)) (at1 m ρ c main_arg4 (by decide)) (row4 m ρ c)
      (at1 m ρ c main_arg6 (by decide)) (row5 m ρ c) (at1 m ρ c main_arg10 (by decide)) (row7 m ρ c)))

/-- The index rows are carried across the edge kernel. -/
theorem src2 (c : Dev nD) : W2 m ρ c (Proc.devRef .tc main_v1) = Net.srcOf (args m c).edges :=
  (W2_of_ne m ρ c main_v1 (by decide)).trans (src1 m ρ c)
theorem dst2 (c : Dev nD) : W2 m ρ c (Proc.devRef .tc main_v3) = Net.dstOf (args m c).edges :=
  (W2_of_ne m ρ c main_v3 (by decide)).trans (dst1 m ρ c)

/-! ## The first convolution's messages and their sums -/

theorem aggr1 (c : Dev nD) : W5 m ρ c (Proc.devRef .tc main_v20)
    = Net.aggr64 (args m c).x (args m c).edges (Net.proj64 (args m c).ea (args m c).p1w (args m c).p1b) := by
  show StableHlo.after hostOps1_2 (StableHlo.after hostOps1_1 (StableHlo.after hostOps1 (W2 m ρ c))) (Proc.devRef .tc main_v20) = _
  after_results
  rw [dst2, src2, le1, at2 m ρ c main_arg0 (by decide)]
  rfl
theorem row21 (c : Dev nD) (j : Fin 256) : V5 m ρ c main_v21 (ix2 (0 : Fin 1) j) = (args m c).n1b1 (ix1 j) := by
  show StableHlo.after hostOps1_2 (W4 m ρ c) (Proc.devRef .tc main_v21) (ix2 (0 : Fin 1) j) = _
  after_results
  rw [at2 m ρ c main_arg13 (by decide)]
  exact shapeCast_a_1a_apply _ _ 0 j
theorem row22 (c : Dev nD) (j : Fin 256) : V5 m ρ c main_v22 (ix2 (0 : Fin 1) j) = (args m c).n1b2 (ix1 j) := by
  show StableHlo.after hostOps1_2 (W4 m ρ c) (Proc.devRef .tc main_v22) (ix2 (0 : Fin 1) j) = _
  after_results
  rw [at2 m ρ c main_arg15 (by decide)]
  exact shapeCast_a_1a_apply _ _ 0 j

/-! ## The first node kernel -/

theorem h1 (c : Dev nD) : W6 m ρ c (Proc.devRef .tc main_v23) = (args m c).h1 :=
  (W6_arr m ρ c 6).trans ((Region1.final6 (V5 m ρ) c).trans
    (RegionNet.G6a_eq (V5 m ρ) c _ _ _ _ _ _ (at5 m ρ c main_arg0 (by decide)) (aggr1 m ρ c) (at5 m ρ c main_arg12 (by decide))
      (row21 m ρ c) (at5 m ρ c main_arg14 (by decide)) (row22 m ρ c)))

theorem src6 (c : Dev nD) : W6 m ρ c (Proc.devRef .tc main_v1) = Net.srcOf (args m c).edges :=
  (W6_of_ne m ρ c main_v1 (by decide)).trans ((K5 m ρ c main_v1 (by decide)).trans ((K4 m ρ c main_v1 (by decide)).trans
    ((K3 m ρ c main_v1 (by decide)).trans (src2 m ρ c))))
theorem dst6 (c : Dev nD) : W6 m ρ c (Proc.devRef .tc main_v3) = Net.dstOf (args m c).edges :=
  (W6_of_ne m ρ c main_v3 (by decide)).trans ((K5 m ρ c main_v3 (by decide)).trans ((K4 m ρ c main_v3 (by decide)).trans
    ((K3 m ρ c main_v3 (by decide)).trans (dst2 m ρ c))))
theorem le2_6 (c : Dev nD) : W6 m ρ c (Proc.devRef .tc main_v8_1) = Net.proj256 (args m c).ea (args m c).p2w (args m c).p2b :=
  (W6_of_ne m ρ c main_v8_1 (by decide)).trans ((K5 m ρ c main_v8_1 (by decide)).trans ((K4 m ρ c main_v8_1 (by decide)).trans
    ((K3 m ρ c main_v8_1 (by decide)).trans (le2 m ρ c))))

/-! ## The second convolution's messages and their sums -/

theorem aggr2 (c : Dev nD) : W9 m ρ c (Proc.devRef .tc main_v35)
    = Net.aggr256 (args m c).h1 (args m c).edges (Net.proj256 (args m c).ea (args m c).p2w (args m c).p2b) := by
  show StableHlo.after hostOps2_2 (StableHlo.after hostOps2_1 (StableHlo.after hostOps2 (W6 m ρ c))) (Proc.devRef .tc main_v35) = _
  after_results
  rw [dst6, src6, le2_6, h1]
  rfl
theorem row36 (c : Dev nD) (j : Fin 256) : V9 m ρ c main_v36 (ix2 (0 : Fin 1) j) = (args m c).n2b1 (ix1 j) := by
  show StableHlo.after hostOps2_2 (W8 m ρ c) (Proc.devRef .tc main_v36) (ix2 (0 : Fin 1) j) = _
  after_results
  rw [at6 m ρ c main_arg17 (by decide)]
  exact shapeCast_a_1a_apply _ _ 0 j
theorem row37 (c : Dev nD) (j : Fin 256) : V9 m ρ c main_v37 (ix2 (0 : Fin 1) j) = (args m c).n2b2 (ix1 j) := by
  show StableHlo.after hostOps2_2 (W8 m ρ c) (Proc.devRef .tc main_v37) (ix2 (0 : Fin 1) j) = _
  after_results
  rw [at6 m ρ c main_arg19 (by decide)]
  exact shapeCast_a_1a_apply _ _ 0 j
theorem h1_9 (c : Dev nD) : W9 m ρ c (Proc.devRef .tc main_v23) = (args m c).h1 :=
  (K9 m ρ c main_v23 (by decide)).trans ((K8 m ρ c main_v23 (by decide)).trans ((K7 m ρ c main_v23 (by decide)).trans (h1 m ρ c)))

/-! ## The second node kernel -/

theorem h2 (c : Dev nD) : W10 m ρ c (Proc.devRef .tc main_v38) = (args m c).h2 :=
  (W10_arr m ρ c 6).trans ((Region2.final6 (V9 m ρ) c).trans
    (RegionNet.G6b_eq (V9 m ρ) c _ _ _ _ _ _ (h1_9 m ρ c) (aggr2 m ρ c) (at9 m ρ c main_arg16 (by decide))
      (row36 m ρ c) (at9 m ρ c main_arg18 (by decide)) (row37 m ρ c)))

end Cert.KernelIdeal.Chain

end
-- ==== Proof.Tail.lean ====
/-
  The kernel program's last stretch: the three results from the second node kernel's rows. The rows of each graph are
  averaged, pass the two-layer trunk and one linear head each; these are host operations in both programs, so the
  results are the network's outputs once the node rows are.
-/
import proofs.«130825_j472446402724_2_alg».proof.Proof.Chain

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀

variable (m : (ℓ : Loc nD τ sig) → Buf (Elt Ideal) ℓ) (ρ : Dev nD → PrngReg)

set_option maxHeartbeats 4000000 in
theorem out0 (c : Dev nD) : W15 m ρ c (Proc.devRef .tc main_v65) = (args m c).out0 := by
  show StableHlo.after hostOps3_4 (StableHlo.after hostOps3_3 (StableHlo.after hostOps3_2 (StableHlo.after hostOps3_1
    (StableHlo.after hostOps3 (W10 m ρ c))))) (Proc.devRef .tc main_v65) = _
  after_results_simp
  rw [h2, at10 m ρ c main_arg2 (by decide), at10 m ρ c main_arg20 (by decide), at10 m ρ c main_arg21 (by decide), at10 m ρ c main_arg22 (by decide), at10 m ρ c main_arg23 (by decide), at10 m ρ c main_arg24 (by decide), at10 m ρ c main_arg25 (by decide)]
  rfl

set_option maxHeartbeats 4000000 in
theorem out1 (c : Dev nD) : W15 m ρ c (Proc.devRef .tc main_v70) = (args m c).out1 := by
  show StableHlo.after hostOps3_4 (StableHlo.after hostOps3_3 (StableHlo.after hostOps3_2 (StableHlo.after hostOps3_1
    (StableHlo.after hostOps3 (W10 m ρ c))))) (Proc.devRef .tc main_v70) = _
  after_results_simp
  rw [h2, at10 m ρ c main_arg2 (by decide), at10 m ρ c main_arg20 (by decide), at10 m ρ c main_arg21 (by decide), at10 m ρ c main_arg22 (by decide), at10 m ρ c main_arg23 (by decide), at10 m ρ c main_arg26 (by decide), at10 m ρ c main_arg27 (by decide)]
  rfl

set_option maxHeartbeats 4000000 in
theorem out2 (c : Dev nD) : W15 m ρ c (Proc.devRef .tc main_v75) = (args m c).out2 := by
  show StableHlo.after hostOps3_4 (StableHlo.after hostOps3_3 (StableHlo.after hostOps3_2 (StableHlo.after hostOps3_1
    (StableHlo.after hostOps3 (W10 m ρ c))))) (Proc.devRef .tc main_v75) = _
  after_results_simp
  rw [h2, at10 m ρ c main_arg2 (by decide), at10 m ρ c main_arg20 (by decide), at10 m ρ c main_arg21 (by decide), at10 m ρ c main_arg22 (by decide), at10 m ρ c main_arg23 (by decide), at10 m ρ c main_arg28 (by decide), at10 m ρ c main_arg29 (by decide)]
  rfl

end Cert.KernelIdeal.Chain

end
-- ==== Proof.RefNet.lean ====
/-
  The host program's three results are the network's three outputs of its own argument arrays: its composed term is the
  network's term, operation for operation.
-/
import proofs.«130825_j472446402724_2_alg».proof.Proof.Gen.ReferenceIdeal.Run
import proofs.«130825_j472446402724_2_alg».proof.Proof.Net

noncomputable section

namespace Cert.RefNet

open Idealize.ShloMosaic Idealize.ShloMosaic.TcCoe Idealize.SL.Sem Cert.ReferenceIdeal

/-- The host program's argument arrays on a device, as the network's arguments. -/
def args (m : (ℓ : Loc nD τ sig) → Buf (Elt Ideal) ℓ) (c : Dev nD) : Net.Args where
  x := m ((c.tc : Thread nD τ).loc main_arg0)
  edges := m ((c.tc : Thread nD τ).loc main_arg1)
  batch := m ((c.tc : Thread nD τ).loc main_arg2)
  attr := m ((c.tc : Thread nD τ).loc main_arg3)
  ew1 := m ((c.tc : Thread nD τ).loc main_arg4)
  eb1 := m ((c.tc : Thread nD τ).loc main_arg5)
  ew2 := m ((c.tc : Thread nD τ).loc main_arg6)
  eb2 := m ((c.tc : Thread nD τ).loc main_arg7)
  p1w := m ((c.tc : Thread nD τ).loc main_arg8)
  p1b := m ((c.tc : Thread nD τ).loc main_arg9)
  p2w := m ((c.tc : Thread nD τ).loc main_arg10)
  p2b := m ((c.tc : Thread nD τ).loc main_arg11)
  n1w1 := m ((c.tc : Thread nD τ).loc main_arg12)
  n1b1 := m ((c.tc : Thread nD τ).loc main_arg13)
  n1w2 := m ((c.tc : Thread nD τ).loc main_arg14)
  n1b2 := m ((c.tc : Thread nD τ).loc main_arg15)
  n2w1 := m ((c.tc : Thread nD τ).loc main_arg16)
  n2b1 := m ((c.tc : Thread nD τ).loc main_arg17)
  n2w2 := m ((c.tc : Thread nD τ).loc main_arg18)
  n2b2 := m ((c.tc : Thread nD τ).loc main_arg19)
  l1w := m ((c.tc : Thread nD τ).loc main_arg20)
  l1b := m ((c.tc : Thread nD τ).loc main_arg21)
  l2w := m ((c.tc : Thread nD τ).loc main_arg22)
  l2b := m ((c.tc : Thread nD τ).loc main_arg23)
  hsw := m ((c.tc : Thread nD τ).loc main_arg24)
  hsb := m ((c.tc : Thread nD τ).loc main_arg25)
  hpw := m ((c.tc : Thread nD τ).loc main_arg26)
  hpb := m ((c.tc : Thread nD τ).loc main_arg27)
  hnw := m ((c.tc : Thread nD τ).loc main_arg28)
  hnb := m ((c.tc : Thread nD τ).loc main_arg29)

set_option maxRecDepth 8192 in
set_option maxHeartbeats 4000000 in
theorem out0_eq (m : (ℓ : Loc nD τ sig) → Buf (Elt Ideal) ℓ) (c : Dev nD) :
    Value.res_main_v93 (F := Ideal) m c = (args m c).out0 := rfl

set_option maxRecDepth 8192 in
set_option maxHeartbeats 4000000 in
theorem out1_eq (m : (ℓ : Loc nD τ sig) → Buf (Elt Ideal) ℓ) (c : Dev nD) :
    Value.res_main_v98 (F := Ideal) m c = (args m c).out1 := rfl

set_option maxRecDepth 8192 in
set_option maxHeartbeats 4000000 in
theorem out2_eq (m : (ℓ : Loc nD τ sig) → Buf (Elt Ideal) ℓ) (c : Dev nD) :
    Value.res_main_v103 (F := Ideal) m c = (args m c).out2 := rfl

end Cert.RefNet

end
-- ==== Proof.lean ====
/-
  The kernel program and the host program compute one network.

  Both programs are read at the extended reals, where a change of float format is the identity. The host program is the
  network's term as it stands (`RefNet`). The kernel program runs three kernels among host operations: its run ends with
  the results at the fold of its stretches and kernels over the launch memory (`KernelRun`), and that fold is the same
  network (`Chain`, `Tail`): each kernel walks over blocks of 2000 rows and computes, row by row, the dense stack the
  host computes on the whole matrix, because a row of a matrix product only depends on the same row of the left operand.
  No algebraic law beyond reading both sides at an entry is used, so the precondition is never opened. The ideal pass
  rewrote nothing, so the kernel's idealization claim is trivial; the three frames are the generated ones.
-/
import proofs.«130825_j472446402724_2_alg».proof.Defs
import proofs.«130825_j472446402724_2_alg».proof.Proof.Gen.Kernel
import proofs.«130825_j472446402724_2_alg».proof.Proof.Gen.Kernel.Frame
import proofs.«130825_j472446402724_2_alg».proof.Proof.Gen.KernelIdeal
import proofs.«130825_j472446402724_2_alg».proof.Proof.Gen.KernelIdeal.Frame
import proofs.«130825_j472446402724_2_alg».proof.Proof.Gen.ReferenceIdeal
import proofs.«130825_j472446402724_2_alg».proof.Proof.Gen.Pre_finite_inputs
import proofs.«130825_j472446402724_2_alg».proof.Proof.Gen.ReferenceIdeal.Run
import proofs.«130825_j472446402724_2_alg».proof.Proof.KernelRun
import proofs.«130825_j472446402724_2_alg».proof.Proof.Tail
import proofs.«130825_j472446402724_2_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The host program's run with its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

set_option maxHeartbeats 1000000 in
/-- From memories that agree on the thirty arguments both programs end with the network's three outputs of those
    arguments. -/
theorem algebraic : Cert.algebraic_KernelIdeal_ReferenceIdeal := by
  intro m ρ m' ρ' _ hagree
  have hA : ∀ c, Cert.RefNet.args m' c = Cert.KernelIdeal.Chain.args m c := fun c => by
    unfold Cert.RefNet.args Cert.KernelIdeal.Chain.args
    rw [Cert.Net.Args.mk.injEq]
    exact hagree c
  refine ⟨fun c => (Cert.KernelIdeal.Chain.args m c).out0, fun c => (Cert.KernelIdeal.Chain.args m c).out1,
    fun c => (Cert.KernelIdeal.Chain.args m c).out2, ?_, ?_⟩
  · exact (θ_run Cert.KernelIdeal.defs _ _).mono (fun r h c =>
      ⟨(h c).1.trans (Cert.KernelIdeal.Chain.out0 m ρ c), (h c).2.1.trans (Cert.KernelIdeal.Chain.out1 m ρ c),
        (h c).2.2.1.trans (Cert.KernelIdeal.Chain.out2 m ρ c), (h c).2.2.2⟩)
      (Cert.KernelIdeal.ValueRun.run (F := Ideal) m ρ)
  · exact (θ_run Cert.ReferenceIdeal.defs _ _).mono (fun r h c =>
      ⟨(h c).1.trans ((Cert.RefNet.out0_eq m' c).trans (congrArg Cert.Net.Args.out0 (hA c))),
        (h c).2.1.trans ((Cert.RefNet.out1_eq m' c).trans (congrArg Cert.Net.Args.out1 (hA c))),
        (h c).2.2.1.trans ((Cert.RefNet.out2_eq m' c).trans (congrArg Cert.Net.Args.out2 (hA c))), (h c).2.2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
